-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x64 .f32) (main_arg5 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S4000x512 : Shape := ⟨2, ![4000, 512]⟩
abbrev S4000x1 : Shape := ⟨2, ![4000, 1]⟩
abbrev S4000x16 : Shape := ⟨2, ![4000, 16]⟩
abbrev S3300000x16 : Shape := ⟨2, ![3300000, 16]⟩
abbrev S1x16 : Shape := ⟨2, ![1, 16]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 70
  | .vmem => 15
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x64, .f32⟩
  | .hbm, ⟨5, _⟩ => ⟨S64, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S100000x1, .f32⟩
  | .hbm, ⟨43, _⟩ => ⟨S100000x16, .f32⟩
  | .hbm, ⟨44, _⟩ => ⟨S100000x16, .f32⟩
  | .hbm, ⟨45, _⟩ => ⟨S1x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S100000x1, .f32⟩
  | .hbm, ⟨52, _⟩ => ⟨S100000x16, .f32⟩
  | .hbm, ⟨53, _⟩ => ⟨S100000x16, .f32⟩
  | .hbm, ⟨54, _⟩ => ⟨S_, .i32⟩
  | .hbm, ⟨55, _⟩ => ⟨S3300000, .i32⟩
  | .hbm, ⟨56, _⟩ => ⟨S3300000, .i1⟩
  | .hbm, ⟨57, _⟩ => ⟨S_, .i32⟩
  | .hbm, ⟨58, _⟩ => ⟨S3300000, .i32⟩
  | .hbm, ⟨59, _⟩ => ⟨S3300000, .i32⟩
  | .hbm, ⟨60, _⟩ => ⟨S3300000, .i32⟩
  | .hbm, ⟨61, _⟩ => ⟨S3300000x1, .i32⟩
  | .hbm, ⟨62, _⟩ => ⟨S3300000x16, .f32⟩
  | .hbm, ⟨63, _⟩ => ⟨S_, .f32⟩
  | .hbm, ⟨64, _⟩ => ⟨S100000x16, .f32⟩
  | .hbm, ⟨65, _⟩ => ⟨S3300000x1, .i32⟩
  | .hbm, ⟨66, _⟩ => ⟨S100000x16, .f32⟩
  | .hbm, ⟨67, _⟩ => ⟨S100000x1, .f32⟩
  | .hbm, ⟨68, _⟩ => ⟨S1x64, .f32⟩
  | .hbm, ⟨69, _⟩ => ⟨S100000x64, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x1, .f32⟩
  | .local _ .vmem, ⟨4, _⟩ => ⟨S4000x1, .f32⟩
  | .local _ .vmem, ⟨5, _⟩ => ⟨S4000x16, .f32⟩
  | .local _ .vmem, ⟨6, _⟩ => ⟨S4000x16, .f32⟩
  | .local _ .vmem, ⟨7, _⟩ => ⟨S4000x16, .f32⟩
  | .local _ .vmem, ⟨8, _⟩ => ⟨S4000x16, .f32⟩
  | .local _ .vmem, ⟨9, _⟩ => ⟨S4000x1, .f32⟩
  | .local _ .vmem, ⟨10, _⟩ => ⟨S4000x1, .f32⟩
  | .local _ .vmem, ⟨11, _⟩ => ⟨S16x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S64_S1x64 : S64.ShapeCasts S1x64
  shapeCasts_S4000x16_S4000x16 : S4000x16.ShapeCasts S4000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S3300000x1_S3300000_n_0_0_1_wf : ScatterDims.WF S100000 S3300000x1 S3300000 [] [0] [0] 1
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x64_S4000x64_1_0_0_1_n_n_wf : DotDims.WF S4000x16 S16x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S100000x16.size a
  hwx0_3 : ∀ i : grid0.Coords, EltTy.bits .f32 = 32 ∨ (Rect.block (s := S100000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x64.size a ≤ S100000x64.size a
  hwx1_4 : ∀ i : grid1.Coords, EltTy.bits .f32 = 32 ∨ (Rect.block (s := S100000x64) S4000x64.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x64_S4000x64_1_0_0_1_n_n : DotDims S4000x16 S16x64 S4000x64 where
  lhsContracting := [1]
  rhsContracting := [0]
  lhsNonContracting := [0]
  rhsNonContracting := [1]
  lhsBatch := []
  rhsBatch := []
  wf := dot_S4000x16_S16x64_S4000x64_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S4000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x64 : Shape := ⟨2, ![16, 64]⟩
abbrev S64 : Shape := ⟨1, ![64]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S3300000x64 : Shape := ⟨2, ![3300000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x64, .f32⟩
  | 5 => ⟨S64, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S1x3200000, .i32⟩
  | 70 => ⟨S3200000, .i32⟩
  | 71 => ⟨S1x3200000, .i32⟩
  | 72 => ⟨S3200000, .i32⟩
  | 73 => ⟨S100000, .i32⟩
  | 74 => ⟨S3300000, .i32⟩
  | 75 => ⟨S3300000, .i32⟩
  | 76 => ⟨S100000x64, .f32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x64, .f32⟩
  | 119 => ⟨S3300000x1, .f32⟩
  | 120 => ⟨S3300000x64, .f32⟩
  | 121 => ⟨S3300000x64, .f32⟩
  | 122 => ⟨S_, .f32⟩
  | 123 => ⟨S100000x64, .f32⟩
  | 124 => ⟨S3300000x1, .i32⟩
  | 125 => ⟨S100000x64, .f32⟩
  | 126 => ⟨S1x64, .f32⟩
  | 127 => ⟨S100000x64, .f32⟩
  | _ => ⟨S100000x512, .f32⟩

abbrev hbmTy0_1 (i : Nat) : BufTy := match i % 128 with
  | 0 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x64_S100000x64_1_0_0_1_n_n_wf : DotDims.WF S100000x16 S16x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.KerRun.lean ====
/-
  The idealized kernel's run, with its result array named.

  Every weakly fair execution of the program terminates without a fault; at the end the result array holds what the
  second region's write-backs leave of it, and the argument arrays are as launched. The program is two kernel regions
  among stretches of host operations; the buffer contents at each boundary are a fold of those stretches and regions from
  the launch memory, and the final state is read against the last boundary's contents, at the result array as at the
  arguments.
-/
import proofs.«165002_j858993459363_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of it, the arguments unchanged. -/
theorem run : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The last boundary's contents of the result array: what the second region's write-backs leave. -/
theorem result_arr (c : Dev nD) :
    W8 m ρ c (Proc.devRef .tc main_v49) = (dat1 (V7 m ρ) c).arrAt 4 cfg1.N :=
  W8_arr m ρ c 4

end Cert.KernelIdeal.RunValue

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.KerPayload.lean ====
/-
  The two kernel bodies' stored values, read at an entry over the extended reals.

  A change of float format is the identity on extended reals, and a matrix product into a zero accumulator is the
  plain inner product, so at entry (p, q) of a block of 4000 rows

    first body :  (Σ_{k<512} X[p,k] · W[k,q]) · d[p,0]          (the projected row, scaled by the row's factor)
    second body:  (Σ_{k<16} (A[p,k] · d[p,0]) · W[k,q]) + b[0,q]  (the scaled row projected, plus the bias row).
-/
import proofs.«165002_j858993459363_2_alg».proof.Proof.Gen.KernelIdeal.Skeleton
import proofs.«165002_j858993459363_2_alg».proof.Proof.LibMatmulNN
import proofs.«165002_j858993459363_2_alg».proof.Proof.LibKeepdimsColumn
import Idealize.ShloMosaic.Lib.ValueLayout
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- The first body's stored value at (p, q): row p of X projected on column q of W, times the row's factor. -/
theorem pay0_apply (v0 : Vec Ideal S4000x512 .f32) (v2 : Vec Ideal S512x16 .f32) (v5 : Vec Ideal S4000x1 .f32)
    (p : Fin 4000) (q : Fin 16) :
    k0_pay1 v0 v2 v5 (ix2 p q) = (∑ k : Fin 512, v0 (ix2 p k) * v2 (ix2 k q)) * v5 (ix2 p (0 : Fin 1)) := by
  unfold k0_pay1
  refine (mulf_apply _ _ _).trans ?_
  refine congrArg₂ (· * ·) ?_ ?_
  · exact Cert.MatmulNN.matmul_zero_apply _ rfl none _ _ p q
  · refine (Cert.KeepdimsColumn.broadcastTo_a1_ab_apply _ _ p q).trans ?_
    exact congrFun (shapeCast_self v5 _) _

/-- The second body's stored value at (p, q): row p of A scaled by the row's factor, projected on column q of W,
    plus the bias row's entry q. -/
theorem pay1_apply (v0 : Vec Ideal S4000x16 .f32) (v2 : Vec Ideal S4000x1 .f32) (v7 : Vec Ideal S16x64 .f32)
    (v10 : Vec Ideal S1x64 .f32) (p : Fin 4000) (q : Fin 64) :
    k1_pay1 v0 v2 v7 v10 (ix2 p q)
      = (∑ k : Fin 16, (v0 (ix2 p k) * v2 (ix2 p (0 : Fin 1))) * v7 (ix2 k q)) + v10 (ix2 (0 : Fin 1) q) := by
  unfold k1_pay1
  refine (addf_apply _ _ _).trans ?_
  refine congrArg₂ (· + ·) ?_ ?_
  · refine (Cert.MatmulNN.matmul_zero_apply _ rfl none _ _ p q).trans ?_
    refine Finset.sum_congr rfl fun k _ => ?_
    refine congrArg₂ (· * ·) ?_ rfl
    refine (mulf_apply _ _ _).trans ?_
    refine congrArg₂ (· * ·) ?_ ?_
    · exact congrFun (shapeCast_self v0 _) _
    · refine (Cert.KeepdimsColumn.broadcastTo_a1_ab_apply _ _ p k).trans ?_
      exact congrFun (shapeCast_self v2 _) _
  · refine (broadcastTo_1b_ab_apply _ _ p q).trans ?_
    exact congrFun (shapeCast_self v10 _) _

end Cert.KernelIdeal.Payload

end
-- ==== Proof.KerRegion0.lean ====
/-
  The first kernel region's output array as one function of the arrays the region finds.

  The grid has 25 points; point t reads rows 4000·t … 4000·t+3999 of X and of the column of factors, the whole of W,
  and writes back the same rows of the output. Every write-back is therefore a block of ONE whole-array function,

      Y[P, q] = (Σ_{k<512} X[P,k] · W[k,q]) · d[P,0],

  and the 25 blocks tile the 100000 rows, so after the region the output array IS that function.
-/
import proofs.«165002_j858993459363_2_alg».proof.Proof.Gen.KernelIdeal.Frame
import proofs.«165002_j858993459363_2_alg».proof.Proof.KerPayload

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (P, q) of the projected and scaled array. -/
def g0 (a0 : S100000x512.Idx → Elt Ideal .f32) (a2 : S512x16.Idx → Elt Ideal .f32) (dc : S100000x1.Idx → Elt Ideal .f32)
    (P : Fin 100000) (q : Fin 16) : Elt Ideal .f32 :=
  (∑ k : Fin 512, a0 (ix2 P k) * a2 (ix2 k q)) * dc (ix2 P (0 : Fin 1))

/-- The projected and scaled array, as a function of an index. -/
def G0 (a0 : S100000x512.Idx → Elt Ideal .f32) (a2 : S512x16.Idx → Elt Ideal .f32) (dc : S100000x1.Idx → Elt Ideal .f32) :
    S100000x16.Idx → Elt Ideal .f32 :=
  fun i => g0 a0 a2 dc ⟨(i 0).val, (i 0).isLt⟩ ⟨(i 1).val, (i 1).isLt⟩

/-- The printed index maps over the grid: the row windows move with the output's block, the weights stay. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every block row is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- Window 0's block at a point, read at an entry: the array X at the block's row offset. -/
theorem blk0_read (c : Dev nD) (t : Fin cfg0.N) (y : S4000x512.Idx) (Y : S100000x512.Idx)
    (h0 : (Y 0).val = win0_3.index t (0 : Fin 2) * 4000 + (y 0).val) (h1 : (Y 1).val = (y 1).val) :
    iblk0 V c 0 t y = V c main_arg0 Y := by
  obtain ⟨e0, e1, -, -, -, -, -, -⟩ := idx_facts t
  show V c main_arg0 (((cfg0.win 0).blk t).view.emb y) = V c main_arg0 Y
  refine congrArg _ (funext fun a => Fin.ext ?_)
  match a with
  | ⟨0, _⟩ => show win0_0.index t (0 : Fin 2) * 4000 + 1 * (y 0).val = (Y 0).val; omega
  | ⟨1, _⟩ => show win0_0.index t (1 : Fin 2) * 512 + 1 * (y 1).val = (Y 1).val; omega

/-- Window 1's block at a point is the whole of W. -/
theorem blk1_read (c : Dev nD) (t : Fin cfg0.N) (y : S512x16.Idx) (Y : S512x16.Idx)
    (h0 : (Y 0).val = (y 0).val) (h1 : (Y 1).val = (y 1).val) :
    iblk0 V c 1 t y = V c main_arg2 Y := by
  obtain ⟨-, -, e2, e3, -, -, -, -⟩ := idx_facts t
  show V c main_arg2 (((cfg0.win 1).blk t).view.emb y) = V c main_arg2 Y
  refine congrArg _ (funext fun a => Fin.ext ?_)
  match a with
  | ⟨0, _⟩ => show win0_1.index t (0 : Fin 2) * 512 + 1 * (y 0).val = (Y 0).val; omega
  | ⟨1, _⟩ => show win0_1.index t (1 : Fin 2) * 16 + 1 * (y 1).val = (Y 1).val; omega

/-- Window 2's block at a point: the column of factors at the block's row offset. -/
theorem blk2_read (c : Dev nD) (t : Fin cfg0.N) (y : S4000x1.Idx) (Y : S100000x1.Idx)
    (h0 : (Y 0).val = win0_3.index t (0 : Fin 2) * 4000 + (y 0).val) (h1 : (Y 1).val = (y 1).val) :
    iblk0 V c 2 t y = V c main_v15 Y := by
  obtain ⟨-, -, -, -, e4, e5, -, -⟩ := idx_facts t
  show V c main_v15 (((cfg0.win 2).blk t).view.emb y) = V c main_v15 Y
  refine congrArg _ (funext fun a => Fin.ext ?_)
  match a with
  | ⟨0, _⟩ => show win0_2.index t (0 : Fin 2) * 4000 + 1 * (y 0).val = (Y 0).val; omega
  | ⟨1, _⟩ => show win0_2.index t (1 : Fin 2) * 1 + 1 * (y 1).val = (Y 1).val; omega

/-- What point t writes back is block t of the projected and scaled array. -/
theorem flushed_eq (c : Dev nD) (t : Fin cfg0.N) :
    (dat0 V c).flushed 3 t
      = ((cfg0.win 3).blk t).view.read (Elt Ideal) (G0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S4000x512) hz, View.ld_unit_zero (S := S512x16) hz, View.ld_unit_zero (S := S4000x1) hz]
  obtain ⟨-, -, -, -, -, -, e6, -⟩ := idx_facts t
  funext j
  obtain ⟨p, q, rfl⟩ : ∃ (p : Fin 4000) (q : Fin 16), j = ix2 p q := ⟨j 0, j 1, eq_ix2 j⟩
  show k0_pay1 (iblk0 V c 0 t) (iblk0 V c 1 t) (iblk0 V c 2 t) (ix2 p q)
    = G0 (V c main_arg0) (V c main_arg2) (V c main_v15) (((cfg0.win 3).blk t).view.emb (ix2 p q))
  refine (Payload.pay0_apply _ _ _ p q).trans ?_
  unfold G0 g0
  have hr : ((((cfg0.win 3).blk t).view.emb (ix2 p q)) 0).val = win0_3.index t (0 : Fin 2) * 4000 + p.val := by
    show win0_3.index t (0 : Fin 2) * 4000 + 1 * p.val = _; omega
  have hc : ((((cfg0.win 3).blk t).view.emb (ix2 p q)) 1).val = q.val := by
    show win0_3.index t (1 : Fin 2) * 16 + 1 * q.val = _; omega
  refine congrArg₂ (· * ·) (Finset.sum_congr rfl fun k _ => congrArg₂ (· * ·) ?_ ?_) ?_
  · exact blk0_read V c t (ix2 p k) _ hr rfl
  · exact blk1_read V c t (ix2 k q) _ rfl hc
  · exact blk2_read V c t (ix2 p (0 : Fin 1)) _ hr rfl

/-- An index of the output array is in point t's block iff each coordinate is in the block's range. -/
theorem mem_blk (t : Fin cfg0.N) (i : S100000x16.Idx) :
    i ∈ ((cfg0.win 3).blk t).view.set ↔ ∀ a : Fin 2, win0_3.index t a * S4000x16.size a ≤ (i a).val ∧ (i a).val < win0_3.index t a * S4000x16.size a + S4000x16.size a := by
  show i ∈ ((View.whole main_v16).slice (win0_3.rect t)).set ↔ _
  rw [View.set_slice_whole, Rect.mem_set_unit]
  exact Iff.rfl

/-- Every index of the output array lies in the block of the point its row falls in. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 16 ≤ (i 1).val ∧ (i 1).val < win0_3.index t (1 : Fin 2) * 16 + 16; omega

/-- After the region the output array is the projected and scaled array of what the region found. -/
theorem final (c : Dev nD) :
    (dat0 V c).arrAt 3 cfg0.N = G0 (V c main_arg0) (V c main_arg2) (V c main_v15) :=
  (dat0 V c).arrAt_eq_of_cover 3 _ (fun t _ => flushed_eq V c t) cover

end Cert.KernelIdeal.Reg0

end
-- ==== Proof.KerRegion1.lean ====
/-
  The second kernel region's output array as one function of the arrays the region finds.

  The grid has 25 points; point t reads rows 4000·t … 4000·t+3999 of the aggregated array A and of the column of
  factors, the whole of W and of the bias row, and writes back the same rows of the output. Every write-back is a
  block of ONE whole-array function,

      Z[P, q] = (Σ_{k<16} (A[P,k] · d[P,0]) · W[k,q]) + b[0,q],

  and the 25 blocks tile the 100000 rows, so after the region the output array IS that function.
-/
import proofs.«165002_j858993459363_2_alg».proof.Proof.Gen.KernelIdeal.Frame
import proofs.«165002_j858993459363_2_alg».proof.Proof.KerPayload

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Entry (P, q) of the scaled, projected and shifted array. -/
def g1 (a : S100000x16.Idx → Elt Ideal .f32) (dc : S100000x1.Idx → Elt Ideal .f32) (w : S16x64.Idx → Elt Ideal .f32)
    (b : S1x64.Idx → Elt Ideal .f32) (P : Fin 100000) (q : Fin 64) : Elt Ideal .f32 :=
  (∑ k : Fin 16, (a (ix2 P k) * dc (ix2 P (0 : Fin 1))) * w (ix2 k q)) + b (ix2 (0 : Fin 1) q)

/-- The scaled, projected and shifted array, as a function of an index. -/
def G1 (a : S100000x16.Idx → Elt Ideal .f32) (dc : S100000x1.Idx → Elt Ideal .f32) (w : S16x64.Idx → Elt Ideal .f32)
    (b : S1x64.Idx → Elt Ideal .f32) : S100000x64.Idx → Elt Ideal .f32 :=
  fun i => g1 a dc w b ⟨(i 0).val, (i 0).isLt⟩ ⟨(i 1).val, (i 1).isLt⟩

/-- The printed index maps over the grid: the row windows move with the output's block, the weights and bias stay. -/
theorem idx_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 24 :=
  (by decide +kernel : ∀ t : Fin grid1.N, _)

/-- Every block row is some point's. -/
theorem idx_onto : ∀ q0 : Fin 25, ∃ t : Fin cfg1.N, win1_4.index t = ![q0.val, 0] :=
  (by decide +kernel : ∀ q0 : Fin 25, ∃ t : Fin grid1.N, win1_4.index t = ![q0.val, 0])

/-- Window 0's block at a point, read at an entry: the aggregated array at the block's row offset. -/
theorem blk0_read (c : Dev nD) (t : Fin cfg1.N) (y : S4000x16.Idx) (Y : S100000x16.Idx)
    (h0 : (Y 0).val = win1_4.index t (0 : Fin 2) * 4000 + (y 0).val) (h1 : (Y 1).val = (y 1).val) :
    iblk1 V c 0 t y = V c main_v46 Y := by
  obtain ⟨e0, e1, -, -, -, -, -, -, -, -⟩ := idx_facts t
  show V c main_v46 (((cfg1.win 0).blk t).view.emb y) = V c main_v46 Y
  refine congrArg _ (funext fun a => Fin.ext ?_)
  match a with
  | ⟨0, _⟩ => show win1_0.index t (0 : Fin 2) * 4000 + 1 * (y 0).val = (Y 0).val; omega
  | ⟨1, _⟩ => show win1_0.index t (1 : Fin 2) * 16 + 1 * (y 1).val = (Y 1).val; omega

/-- Window 1's block at a point: the column of factors at the block's row offset. -/
theorem blk1_read (c : Dev nD) (t : Fin cfg1.N) (y : S4000x1.Idx) (Y : S100000x1.Idx)
    (h0 : (Y 0).val = win1_4.index t (0 : Fin 2) * 4000 + (y 0).val) (h1 : (Y 1).val = (y 1).val) :
    iblk1 V c 1 t y = V c main_v47 Y := by
  obtain ⟨-, -, e2, e3, -, -, -, -, -, -⟩ := idx_facts t
  show V c main_v47 (((cfg1.win 1).blk t).view.emb y) = V c main_v47 Y
  refine congrArg _ (funext fun a => Fin.ext ?_)
  match a with
  | ⟨0, _⟩ => show win1_1.index t (0 : Fin 2) * 4000 + 1 * (y 0).val = (Y 0).val; omega
  | ⟨1, _⟩ => show win1_1.index t (1 : Fin 2) * 1 + 1 * (y 1).val = (Y 1).val; omega

/-- Window 2's block at a point is the whole of W. -/
theorem blk2_read (c : Dev nD) (t : Fin cfg1.N) (y : S16x64.Idx) (Y : S16x64.Idx)
    (h0 : (Y 0).val = (y 0).val) (h1 : (Y 1).val = (y 1).val) :
    iblk1 V c 2 t y = V c main_arg4 Y := by
  obtain ⟨-, -, -, -, e4, e5, -, -, -, -⟩ := idx_facts t
  show V c main_arg4 (((cfg1.win 2).blk t).view.emb y) = V c main_arg4 Y
  refine congrArg _ (funext fun a => Fin.ext ?_)
  match a with
  | ⟨0, _⟩ => show win1_2.index t (0 : Fin 2) * 16 + 1 * (y 0).val = (Y 0).val; omega
  | ⟨1, _⟩ => show win1_2.index t (1 : Fin 2) * 64 + 1 * (y 1).val = (Y 1).val; omega

/-- Window 3's block at a point is the whole bias row. -/
theorem blk3_read (c : Dev nD) (t : Fin cfg1.N) (y : S1x64.Idx) (Y : S1x64.Idx)
    (h0 : (Y 0).val = (y 0).val) (h1 : (Y 1).val = (y 1).val) :
    iblk1 V c 3 t y = V c main_v48 Y := by
  obtain ⟨-, -, -, -, -, -, e6, e7, -, -⟩ := idx_facts t
  show V c main_v48 (((cfg1.win 3).blk t).view.emb y) = V c main_v48 Y
  refine congrArg _ (funext fun a => Fin.ext ?_)
  match a with
  | ⟨0, _⟩ => show win1_3.index t (0 : Fin 2) * 1 + 1 * (y 0).val = (Y 0).val; omega
  | ⟨1, _⟩ => show win1_3.index t (1 : Fin 2) * 64 + 1 * (y 1).val = (Y 1).val; omega

/-- What point t writes back is block t of the scaled, projected and shifted array. -/
theorem flushed_eq (c : Dev nD) (t : Fin cfg1.N) :
    (dat1 V c).flushed 4 t
      = ((cfg1.win 4).blk t).view.read (Elt Ideal) (G1 (V c main_v46) (V c main_v47) (V c main_arg4) (V c main_v48)) := by
  show (cfg1.win 4).cut (grid1.coords t) ((dat1 V c).after 4 t) = _
  rw [after1_4]
  unfold out1_4
  rw [View.canon_unit_zero hz]
  simp only [View.ld_unit_zero (S := S4000x16) hz, View.ld_unit_zero (S := S4000x1) hz, View.ld_unit_zero (S := S16x64) hz, View.ld_unit_zero (S := S1x64) hz]
  obtain ⟨-, -, -, -, -, -, -, -, e8, -⟩ := idx_facts t
  funext j
  obtain ⟨p, q, rfl⟩ : ∃ (p : Fin 4000) (q : Fin 64), j = ix2 p q := ⟨j 0, j 1, eq_ix2 j⟩
  show k1_pay1 (iblk1 V c 0 t) (iblk1 V c 1 t) (iblk1 V c 2 t) (iblk1 V c 3 t) (ix2 p q)
    = G1 (V c main_v46) (V c main_v47) (V c main_arg4) (V c main_v48) (((cfg1.win 4).blk t).view.emb (ix2 p q))
  refine (Payload.pay1_apply _ _ _ _ p q).trans ?_
  unfold G1 g1
  have hr : ((((cfg1.win 4).blk t).view.emb (ix2 p q)) 0).val = win1_4.index t (0 : Fin 2) * 4000 + p.val := by
    show win1_4.index t (0 : Fin 2) * 4000 + 1 * p.val = _; omega
  have hc : ((((cfg1.win 4).blk t).view.emb (ix2 p q)) 1).val = q.val := by
    show win1_4.index t (1 : Fin 2) * 64 + 1 * q.val = _; omega
  refine congrArg₂ (· + ·) (Finset.sum_congr rfl fun k _ => congrArg₂ (· * ·) (congrArg₂ (· * ·) ?_ ?_) ?_) ?_
  · exact blk0_read V c t (ix2 p k) _ hr rfl
  · exact blk1_read V c t (ix2 p (0 : Fin 1)) _ hr rfl
  · exact blk2_read V c t (ix2 k q) _ rfl hc
  · exact blk3_read V c t (ix2 (0 : Fin 1) q) _ rfl hc

/-- An index of the output array is in point t's block iff each coordinate is in the block's range. -/
theorem mem_blk (t : Fin cfg1.N) (i : S100000x64.Idx) :
    i ∈ ((cfg1.win 4).blk t).view.set ↔ ∀ a : Fin 2, win1_4.index t a * S4000x64.size a ≤ (i a).val ∧ (i a).val < win1_4.index t a * S4000x64.size a + S4000x64.size a := by
  show i ∈ ((View.whole main_v49).slice (win1_4.rect t)).set ↔ _
  rw [View.set_slice_whole, Rect.mem_set_unit]
  exact Iff.rfl

/-- Every index of the output array lies in the block of the point its row falls in. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 64 ≤ (i 1).val ∧ (i 1).val < win1_4.index t (1 : Fin 2) * 64 + 64; omega

/-- After the region the output array is the scaled, projected and shifted array of what the region found. -/
theorem final (c : Dev nD) :
    (dat1 V c).arrAt 4 cfg1.N = G1 (V c main_v46) (V c main_v47) (V c main_arg4) (V c main_v48) :=
  (dat1 V c).arrAt_eq_of_cover 4 _ (fun t _ => flushed_eq V c t) cover

end Cert.KernelIdeal.Reg1

end
-- ==== Proof.KerStageDefs.lean ====
/-
  The idealized kernel's result array as one function of the argument arrays.

  Between and around its two kernel regions the program runs host operations. Written as functions:
    rowI, colI  the edge list's two rows, each followed by the self loops 0 … N−1;
    wrapB       a row-index vector with negative entries wrapped by N, as a column (what a gather reads);
    colB        a row-index vector as a column (what a scatter-add reads, raw);
    deg, dinv   the number of edges landing on each node, and where(deg > 0, deg^(−1/2), 0);
    agg Y       gather the rows of Y the edges read, then add each into the row its edge lands on;
    hidden      relu(agg(Y)·d + b1)·d, row by row;
  and the result is the second region's function of agg(hidden(first region's function)).
-/
import proofs.«165002_j858993459363_2_alg».proof.Proof.KerRegion0
import proofs.«165002_j858993459363_2_alg».proof.Proof.KerRegion1

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]

/-- The edge list's row r (0: sources, 1: destinations is spelt by the two definitions below), then the self loops. -/
def rowI (a1 : IVec S2x3200000 32) : IVec S3300000 32 :=
  concatenate S3300000 0 [⟨S3200000, shapeCast _ (extractStridedSlice S1x3200000 ![0, 0] a1 slices_S2x3200000_S1x3200000_0_0) shapeCasts_S1x3200000_S3200000⟩, ⟨S100000, iotaInDim S100000 32 0⟩] concatenates_S3200000_S100000_S3300000_d0

def colI (a1 : IVec S2x3200000 32) : IVec S3300000 32 :=
  concatenate S3300000 0 [⟨S3200000, shapeCast _ (extractStridedSlice S1x3200000 ![1, 0] a1 slices_S2x3200000_S1x3200000_1_0) shapeCasts_S1x3200000_S3200000⟩, ⟨S100000, iotaInDim S100000 32 0⟩] concatenates_S3200000_S100000_S3300000_d0

/-- A row-index vector with negative entries wrapped by N, as a column. -/
def wrapB (r : IVec S3300000 32) : IVec S3300000x1 32 :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- A row-index vector as a column. -/
def colB (r : IVec S3300000 32) : IVec S3300000x1 32 :=
  broadcastInDim S3300000x1 ![0] bcast_S3300000_S3300000x1_0 r

/-- The number of edges landing on each node. -/
def deg (cl : IVec S3300000 32) : FVec F S100000 .f32 :=
  Host.scatterAdd scatter_S100000_S3300000x1_S3300000_n_0_0_1
    (broadcastInDim S100000 ![] bcast_S_S100000 (constant (F := F) S_ .f32 0x00000000#32)) (colB cl)
    (broadcastInDim S3300000 ![] bcast_S_S3300000 (constant (F := F) S_ .f32 0x3F800000#32))

/-- The per-node scaling: deg^(−1/2) where the degree is positive, 0 elsewhere. -/
def dinv (cl : IVec S3300000 32) : FVec F S100000 .f32 :=
  select (cmpf (F := F) .ogt (deg cl) (broadcastInDim S100000 ![] bcast_S_S100000 (constant (F := F) S_ .f32 0x00000000#32)))
    (Host.rsqrt (deg cl)) (broadcastInDim S100000 ![] bcast_S_S100000 (id (constant (F := F) S_ .f32 0x00000000#32)))

/-- The scaling as a column. -/
def dcol (D : FVec F S100000 .f32) : FVec F S100000x1 .f32 := shapeCast S100000x1 D shapeCasts_S100000_S100000x1

/-- Gather the rows the edges read, add each into the row its edge lands on. -/
def agg (Y : FVec F S100000x16 .f32) (rw cl : IVec S3300000 32) : FVec F S100000x16 .f32 :=
  Host.scatterAdd scatter_S100000x16_S3300000x1_S3300000x16_1_0_0_1
    (broadcastInDim S100000x16 ![] bcast_S_S100000x16 (constant (F := F) S_ .f32 0x00000000#32)) (colB cl)
    (Host.gather gather_S100000x16_S3300000x1_S3300000x16_1_0_n_n_0_1_116 Y (wrapB rw))

/-- The scaling repeated along each row's 16 entries. -/
def dB (D : FVec F S100000 .f32) : FVec F S100000x16 .f32 :=
  broadcastInDim S100000x16 ![0, 1] bcast_S100000x1_S100000x16_0_1 (broadcastInDim S100000x1 ![0] bcast_S100000_S100000x1_0 D)

/-- relu(agg(Y)·d + b1)·d. -/
def hidden (Y : FVec F S100000x16 .f32) (rw cl : IVec S3300000 32) (D : FVec F S100000 .f32) (b1 : FVec F S16 .f32) :
    FVec F S100000x16 .f32 :=
  mulf (maximumf (addf (mulf (agg Y rw cl) (dB D))
      (broadcastInDim S100000x16 ![0, 1] bcast_S1x16_S100000x16_0_1 (broadcastInDim S1x16 ![1] bcast_S16_S1x16_1 b1)))
    (broadcastInDim S100000x16 ![] bcast_S_S100000x16 (constant (F := F) S_ .f32 0x00000000#32))) (dB D)

/-- The kernel's result array, for any two row-index vectors and any scaling. -/
def kerArrOf (x0 : FVec Ideal S100000x512 .f32) (rw cl : IVec S3300000 32) (D : FVec Ideal S100000 .f32)
    (x2 : FVec Ideal S512x16 .f32) (x3 : FVec Ideal S16 .f32) (x4 : FVec Ideal S16x64 .f32) (x5 : FVec Ideal S64 .f32) :
    FVec Ideal S100000x64 .f32 :=
  Reg1.G1 (agg (hidden (Reg0.G0 x0 x2 (dcol D)) rw cl D x3) rw cl) (dcol D) x4 (shapeCast S1x64 x5 shapeCasts_S64_S1x64)

/-- The kernel's result array. -/
def kerArr (x0 : FVec Ideal S100000x512 .f32) (x1 : IVec S2x3200000 32) (x2 : FVec Ideal S512x16 .f32) (x3 : FVec Ideal S16 .f32)
    (x4 : FVec Ideal S16x64 .f32) (x5 : FVec Ideal S64 .f32) : FVec Ideal S100000x64 .f32 :=
  kerArrOf x0 (rowI x1) (colI x1) (dinv (colI x1)) x2 x3 x4 x5

end Cert.KernelIdeal.Stages

end
-- ==== Proof.KerBoundaries.lean ====
/-
  The buffer contents at the boundaries of the idealized kernel's program, host stretch by host stretch.

  Each boundary's contents are computed from the previous boundary's by the host operations between them, for any
  float instance: the index vectors and the scaling before the first region; what passes through the first region
  untouched; and between the regions the aggregation, the bias, the relu, the second scaling and the second
  aggregation, each over the previous boundary's buffers.
-/
import proofs.«165002_j858993459363_2_alg».proof.Proof.KerRun
import proofs.«165002_j858993459363_2_alg».proof.Proof.KerStageDefs

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

section AnyInstance

variable {F : FTy → Type} [FloatOps F]
variable (m : (ℓ : Loc nD τ sig) → Buf (Elt F) ℓ) (ρ : Dev nD → PrngReg)

/-! ### Up to the first region: the index vectors, the scaling, and the untouched arguments -/

set_option maxHeartbeats 4000000 in
theorem W1_v5 (c : Dev nD) : W1 m ρ c (Proc.devRef .tc main_v5) = rowI (m ((c.tc : Thread nD τ).loc main_arg1)) := by
  show StableHlo.after hostOps0 (W0 m ρ c) (Proc.devRef .tc main_v5) = _
  after_results <;> rfl

set_option maxHeartbeats 4000000 in
theorem W1_v6 (c : Dev nD) : W1 m ρ c (Proc.devRef .tc main_v6) = colI (m ((c.tc : Thread nD τ).loc main_arg1)) := by
  show StableHlo.after hostOps0 (W0 m ρ c) (Proc.devRef .tc main_v6) = _
  after_results <;> rfl

set_option maxHeartbeats 4000000 in
theorem W1_v12 (c : Dev nD) : W1 m ρ c (Proc.devRef .tc main_v12)
    = cmpf (F := F) .ogt (deg (colI (m ((c.tc : Thread nD τ).loc main_arg1)))) (broadcastInDim S100000 ![] bcast_S_S100000 (constant (F := F) S_ .f32 0x00000000#32)) := by
  show StableHlo.after hostOps0 (W0 m ρ c) (Proc.devRef .tc main_v12) = _
  after_results <;> rfl

set_option maxHeartbeats 4000000 in
theorem W1_v13 (c : Dev nD) : W1 m ρ c (Proc.devRef .tc main_v13) = Host.rsqrt (deg (F := F) (colI (m ((c.tc : Thread nD τ).loc main_arg1)))) := by
  show StableHlo.after hostOps0 (W0 m ρ c) (Proc.devRef .tc main_v13) = _
  after_results <;> rfl

set_option maxHeartbeats 4000000 in
theorem W1_cst2 (c : Dev nD) : W1 m ρ c (Proc.devRef .tc main_cst_2) = constant (F := F) S_ .f32 0x00000000#32 := by
  show StableHlo.after hostOps0 (W0 m ρ c) (Proc.devRef .tc main_cst_2) = _
  after_results <;> rfl

set_option maxHeartbeats 4000000 in
theorem W2_v14 (c : Dev nD) : W2 m ρ c (Proc.devRef .tc main_v14) = dinv (F := F) (colI (m ((c.tc : Thread nD τ).loc main_arg1))) := by
  have e : W2 m ρ c (Proc.devRef .tc main_v14)
      = select (W1 m ρ c (Proc.devRef .tc main_v12)) (W1 m ρ c (Proc.devRef .tc main_v13))
          (broadcastInDim S100000 ![] bcast_S_S100000 (id (W1 m ρ c (Proc.devRef .tc main_cst_2)))) := by
    show StableHlo.after hostOps0_1 (W1 m ρ c) (Proc.devRef .tc main_v14) = _
    after_results <;> rfl
  rw [e, W1_v12, W1_v13, W1_cst2]
  rfl

set_option maxHeartbeats 4000000 in
theorem W3_v14 (c : Dev nD) : W3 m ρ c (Proc.devRef .tc main_v14) = dinv (F := F) (colI (m ((c.tc : Thread nD τ).loc main_arg1))) := by
  have e : W3 m ρ c (Proc.devRef .tc main_v14) = W2 m ρ c (Proc.devRef .tc main_v14) := by
    show StableHlo.after hostOps0_2 (W2 m ρ c) (Proc.devRef .tc main_v14) = _
    after_results <;> rfl
  rw [e, W2_v14]

set_option maxHeartbeats 4000000 in
theorem V3_v15 (c : Dev nD) : V3 m ρ c main_v15 = dcol (dinv (F := F) (colI (m ((c.tc : Thread nD τ).loc main_arg1)))) := by
  have e : V3 m ρ c main_v15 = dcol (W2 m ρ c (Proc.devRef .tc main_v14)) := by
    show StableHlo.after hostOps0_2 (W2 m ρ c) (Proc.devRef .tc main_v15) = _
    after_results <;> rfl
  rw [e, W2_v14]

set_option maxHeartbeats 4000000 in
theorem W3_v5 (c : Dev nD) : W3 m ρ c (Proc.devRef .tc main_v5) = rowI (m ((c.tc : Thread nD τ).loc main_arg1)) := by
  have e : W3 m ρ c (Proc.devRef .tc main_v5) = W1 m ρ c (Proc.devRef .tc main_v5) := by
    show StableHlo.after hostOps0_2 (StableHlo.after hostOps0_1 (W1 m ρ c)) (Proc.devRef .tc main_v5) = _
    after_results <;> rfl
  rw [e, W1_v5]

set_option maxHeartbeats 4000000 in
theorem W3_v6 (c : Dev nD) : W3 m ρ c (Proc.devRef .tc main_v6) = colI (m ((c.tc : Thread nD τ).loc main_arg1)) := by
  have e : W3 m ρ c (Proc.devRef .tc main_v6) = W1 m ρ c (Proc.devRef .tc main_v6) := by
    show StableHlo.after hostOps0_2 (StableHlo.after hostOps0_1 (W1 m ρ c)) (Proc.devRef .tc main_v6) = _
    after_results <;> rfl
  rw [e, W1_v6]

set_option maxHeartbeats 4000000 in
theorem W3_arg0 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results <;> rfl

set_option maxHeartbeats 4000000 in
theorem W3_arg2 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results <;> rfl

set_option maxHeartbeats 4000000 in
theorem W3_arg3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results <;> rfl

set_option maxHeartbeats 4000000 in
theorem W3_arg4 (c : Dev nD) : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results <;> rfl

set_option maxHeartbeats 4000000 in
theorem W3_arg5 (c : Dev nD) : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results <;> rfl

/-! ### Through the first region: only its output array changes -/

theorem W4_v5 (c : Dev nD) : W4 m ρ c (Proc.devRef .tc main_v5) = W3 m ρ c (Proc.devRef .tc main_v5) :=
  W4_of_ne m ρ c main_v5 (by decide)
theorem W4_v6 (c : Dev nD) : W4 m ρ c (Proc.devRef .tc main_v6) = W3 m ρ c (Proc.devRef .tc main_v6) :=
  W4_of_ne m ρ c main_v6 (by decide)
theorem W4_v14 (c : Dev nD) : W4 m ρ c (Proc.devRef .tc main_v14) = W3 m ρ c (Proc.devRef .tc main_v14) :=
  W4_of_ne m ρ c main_v14 (by decide)
theorem W4_arg3 (c : Dev nD) : W4 m ρ c (Proc.devRef .tc main_arg3) = W3 m ρ c (Proc.devRef .tc main_arg3) :=
  W4_of_ne m ρ c main_arg3 (by decide)
theorem W4_arg4 (c : Dev nD) : W4 m ρ c (Proc.devRef .tc main_arg4) = W3 m ρ c (Proc.devRef .tc main_arg4) :=
  W4_of_ne m ρ c main_arg4 (by decide)
theorem W4_arg5 (c : Dev nD) : W4 m ρ c (Proc.devRef .tc main_arg5) = W3 m ρ c (Proc.devRef .tc main_arg5) :=
  W4_of_ne m ρ c main_arg5 (by decide)

/-! ### Between the regions -/

set_option maxHeartbeats 16000000 in
/-- What the first stretch after the first region leaves before the relu: agg(Y)·d + b1. -/
theorem W5_v32 (c : Dev nD) : W5 m ρ c (Proc.devRef .tc main_v32)
    = addf (mulf (agg (W4 m ρ c (Proc.devRef .tc main_v16)) (W4 m ρ c (Proc.devRef .tc main_v5)) (W4 m ρ c (Proc.devRef .tc main_v6)))
          (dB (W4 m ρ c (Proc.devRef .tc main_v14))))
        (broadcastInDim S100000x16 ![0, 1] bcast_S1x16_S100000x16_0_1 (broadcastInDim S1x16 ![1] bcast_S16_S1x16_1 (W4 m ρ c (Proc.devRef .tc main_arg3)))) := by
  show StableHlo.after hostOps1 (W4 m ρ c) (Proc.devRef .tc main_v32) = _
  after_results <;> rfl

set_option maxHeartbeats 4000000 in
theorem W6_v33 (c : Dev nD) : W6 m ρ c (Proc.devRef .tc main_v33)
    = maximumf (W5 m ρ c (Proc.devRef .tc main_v32)) (broadcastInDim S100000x16 ![] bcast_S_S100000x16 (constant (F := F) S_ .f32 0x00000000#32)) := by
  show StableHlo.after hostOps1_1 (W5 m ρ c) (Proc.devRef .tc main_v33) = _
  after_results <;> rfl

set_option maxHeartbeats 8000000 in
theorem W6_v5 (c : Dev nD) : W6 m ρ c (Proc.devRef .tc main_v5) = W4 m ρ c (Proc.devRef .tc main_v5) := by
  show StableHlo.after hostOps1_1 (StableHlo.after hostOps1 (W4 m ρ c)) (Proc.devRef .tc main_v5) = _
  after_results <;> rfl

set_option maxHeartbeats 8000000 in
theorem W6_v6 (c : Dev nD) : W6 m ρ c (Proc.devRef .tc main_v6) = W4 m ρ c (Proc.devRef .tc main_v6) := by
  show StableHlo.after hostOps1_1 (StableHlo.after hostOps1 (W4 m ρ c)) (Proc.devRef .tc main_v6) = _
  after_results <;> rfl

set_option maxHeartbeats 8000000 in
theorem W6_v14 (c : Dev nD) : W6 m ρ c (Proc.devRef .tc main_v14) = W4 m ρ c (Proc.devRef .tc main_v14) := by
  show StableHlo.after hostOps1_1 (StableHlo.after hostOps1 (W4 m ρ c)) (Proc.devRef .tc main_v14) = _
  after_results <;> rfl

set_option maxHeartbeats 8000000 in
theorem W6_arg4 (c : Dev nD) : W6 m ρ c (Proc.devRef .tc main_arg4) = W4 m ρ c (Proc.devRef .tc main_arg4) := by
  show StableHlo.after hostOps1_1 (StableHlo.after hostOps1 (W4 m ρ c)) (Proc.devRef .tc main_arg4) = _
  after_results <;> rfl

set_option maxHeartbeats 8000000 in
theorem W6_arg5 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  after_results <;> rfl

set_option maxHeartbeats 16000000 in
theorem V7_v46 (c : Dev nD) : V7 m ρ c main_v46
    = agg (mulf (W6 m ρ c (Proc.devRef .tc main_v33)) (dB (W6 m ρ c (Proc.devRef .tc main_v14))))
        (W6 m ρ c (Proc.devRef .tc main_v5)) (W6 m ρ c (Proc.devRef .tc main_v6)) := by
  show StableHlo.after hostOps1_2 (W6 m ρ c) (Proc.devRef .tc main_v46) = _
  after_results <;> rfl

set_option maxHeartbeats 8000000 in
theorem V7_v47 (c : Dev nD) : V7 m ρ c main_v47 = dcol (W6 m ρ c (Proc.devRef .tc main_v14)) := by
  show StableHlo.after hostOps1_2 (W6 m ρ c) (Proc.devRef .tc main_v47) = _
  after_results <;> rfl

set_option maxHeartbeats 8000000 in
theorem V7_arg4 (c : Dev nD) : V7 m ρ c main_arg4 = W6 m ρ c (Proc.devRef .tc main_arg4) := by
  show StableHlo.after hostOps1_2 (W6 m ρ c) (Proc.devRef .tc main_arg4) = _
  after_results <;> rfl

set_option maxHeartbeats 8000000 in
theorem V7_v48 (c : Dev nD) : V7 m ρ c main_v48 = shapeCast S1x64 (W6 m ρ c (Proc.devRef .tc main_arg5)) shapeCasts_S64_S1x64 := by
  show StableHlo.after hostOps1_2 (W6 m ρ c) (Proc.devRef .tc main_v48) = _
  after_results <;> rfl

end AnyInstance

end Cert.KernelIdeal.Stages

end
-- ==== Proof.KerValue.lean ====
/-
  The idealized kernel's result array as its function of the argument arrays.

  A kernel region replaces its output array by its closed form of the arrays it finds and leaves every other buffer
  alone. Chaining the boundaries from the launch memory to the return: the first region's output is its closed form of
  X, W1 and the scaling column; the stretches between the regions turn it into the aggregated hidden rows; the second
  region's output, the program's result, is its closed form of those, the scaling column, W2 and the bias row.
-/
import proofs.«165002_j858993459363_2_alg».proof.Proof.KerBoundaries

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region's output array: its closed form of the launch arrays and the scaling. -/
theorem W4_v16 (c : Dev nD) : W4 m ρ c (Proc.devRef .tc main_v16)
    = Reg0.G0 (m ((c.tc : Thread nD τ).loc main_arg0)) (m ((c.tc : Thread nD τ).loc main_arg2)) (dcol (dinv (F := Ideal) (colI (m ((c.tc : Thread nD τ).loc main_arg1))))) := by
  refine (W4_arr m ρ c 3).trans ((Reg0.final (V3 m ρ) c).trans ?_)
  have e0 : V3 m ρ c main_arg0 = (m ((c.tc : Thread nD τ).loc main_arg0)) := W3_arg0 m ρ c
  have e2 : V3 m ρ c main_arg2 = (m ((c.tc : Thread nD τ).loc main_arg2)) := W3_arg2 m ρ c
  rw [e0, e2, V3_v15]

/-- THE KERNEL'S VALUE: the result array at the return is the kernel's function of the argument arrays. -/
theorem value (c : Dev nD) : W8 m ρ c (Proc.devRef .tc main_v49)
    = kerArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (RunValue.result_arr m ρ c).trans ((Reg1.final (V7 m ρ) c).trans ?_)
  rw [V7_v46, V7_v47, V7_arg4, V7_v48, W6_v33, W5_v32, W6_v5, W6_v6, W6_v14, W6_arg4, W6_arg5,
    W4_v16, W4_v5, W4_v6, W4_v14, W4_arg3, W4_arg4, W4_arg5, W3_v5, W3_v6, W3_v14, W3_arg3, W3_arg4, W3_arg5]
  unfold kerArr kerArrOf hidden
  rfl

end Cert.KernelIdeal.Stages

end
-- ==== Proof.RefStages.lean ====
/-
  The idealized reference's result array as one function of the argument arrays.

  The reference applies the textbook formula twice: project, then for every edge multiply the row it reads by the
  product of the two end nodes' scalings, add into the row the edge lands on, add the bias; relu between the layers.
  Written as functions (the index vectors and the scaling are the same ones the kernel's program computes):
    nrm          per edge, d[row read] · d[row landed on], both read through the wrapped indices;
    aggW16/64    gather rows, scale each by its edge's nrm, add each into the row its edge lands on;
    hiddenR      relu(aggW16(X·W1) + b1);
  and the result is aggW64(hiddenR·W2) + b2. The run's composed term is this function of the arguments, by unfolding.
-/
import proofs.«165002_j858993459363_2_alg».proof.Proof.RefRunP
import Idealize.ShloMosaic.PureOps.Ideal
import Idealize.ShloMosaic.Lib.ValueIdx

set_option maxRecDepth 16384

noncomputable section

namespace Cert.ReferenceIdeal.Stages

open Cert.ReferenceIdeal Cert.ReferenceIdeal.Gen
open Idealize.ShloMosaic Idealize.ShloMosaic.TcCoe Idealize.SL.Sem Idealize.ShloMosaic.StableHlo

def rowI (a1 : IVec S2x3200000 32) : IVec S3300000 32 :=
  concatenate S3300000 0 [⟨S3200000, shapeCast _ (extractStridedSlice S1x3200000 ![0, 0] a1 slices_S2x3200000_S1x3200000_0_0) shapeCasts_S1x3200000_S3200000⟩, ⟨S100000, iotaInDim S100000 32 0⟩] concatenates_S3200000_S100000_S3300000_d0

def colI (a1 : IVec S2x3200000 32) : IVec S3300000 32 :=
  concatenate S3300000 0 [⟨S3200000, shapeCast _ (extractStridedSlice S1x3200000 ![1, 0] a1 slices_S2x3200000_S1x3200000_1_0) shapeCasts_S1x3200000_S3200000⟩, ⟨S100000, iotaInDim S100000 32 0⟩] concatenates_S3200000_S100000_S3300000_d0

/-- A row-index vector with negative entries wrapped by N, as a column. -/
def wrapB (r : IVec S3300000 32) : IVec S3300000x1 32 :=
  broadcastInDim S3300000x1 ![0] bcast_S3300000_S3300000x1_0
    (select (cmpi .slt r (broadcastInDim S3300000 ![] bcast_S_S3300000 (constantI S_ 32 0#32)))
      (addi r (broadcastInDim S3300000 ![] bcast_S_S3300000 (constantI S_ 32 100000#32))) r)

/-- A row-index vector as a column. -/
def colB (r : IVec S3300000 32) : IVec S3300000x1 32 :=
  broadcastInDim S3300000x1 ![0] bcast_S3300000_S3300000x1_0 r

/-- The number of edges landing on each node. -/
def deg (cl : IVec S3300000 32) : FVec Ideal S100000 .f32 :=
  Host.scatterAdd scatter_S100000_S3300000x1_S3300000_n_0_0_1
    (broadcastInDim S100000 ![] bcast_S_S100000 (constant (F := Ideal) S_ .f32 0x00000000#32)) (colB cl)
    (broadcastInDim S3300000 ![] bcast_S_S3300000 (constant (F := Ideal) S_ .f32 0x3F800000#32))

/-- The per-node scaling: deg^(−1/2) where the degree is positive, 0 elsewhere. -/
def dinv (cl : IVec S3300000 32) : FVec Ideal S100000 .f32 :=
  select (cmpf (F := Ideal) .ogt (deg cl) (broadcastInDim S100000 ![] bcast_S_S100000 (constant (F := Ideal) S_ .f32 0x00000000#32)))
    (Host.rsqrt (deg cl)) (broadcastInDim S100000 ![] bcast_S_S100000 (id (constant (F := Ideal) S_ .f32 0x00000000#32)))

/-- Per edge: the scaling of the row read times the scaling of the row landed on. -/
def nrm (D : FVec Ideal S100000 .f32) (rw cl : IVec S3300000 32) : FVec Ideal S3300000 .f32 :=
  mulf (Host.gather gather_S100000_S3300000x1_S3300000_n_0_n_n_0_1_1 D (wrapB rw))
    (Host.gather gather_S100000_S3300000x1_S3300000_n_0_n_n_0_1_1 D (wrapB cl))

/-- Gather rows of a 16-wide array, scale each by its edge's factor, add each into the row its edge lands on. -/
def aggW16 (Z : FVec Ideal S100000x16 .f32) (rw cl : IVec S3300000 32) (D : FVec Ideal S100000 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (colB cl)
    (mulf (Host.gather gather_S100000x16_S3300000x1_S3300000x16_1_0_n_n_0_1_116 Z (wrapB rw))
      (broadcastInDim S3300000x16 ![0, 1] bcast_S3300000x1_S3300000x16_0_1
        (broadcastInDim S3300000x1 ![0] bcast_S3300000_S3300000x1_0 (nrm D rw cl))))

/-- The same for a 64-wide array. -/
def aggW64 (Z : FVec Ideal S100000x64 .f32) (rw cl : IVec S3300000 32) (D : FVec Ideal S100000 .f32) : FVec Ideal S100000x64 .f32 :=
  Host.scatterAdd scatter_S100000x64_S3300000x1_S3300000x64_1_0_0_1
    (broadcastInDim S100000x64 ![] bcast_S_S100000x64 (constant (F := Ideal) S_ .f32 0x00000000#32)) (colB cl)
    (mulf (Host.gather gather_S100000x64_S3300000x1_S3300000x64_1_0_n_n_0_1_164 Z (wrapB rw))
      (broadcastInDim S3300000x64 ![0, 1] bcast_S3300000x1_S3300000x64_0_1
        (broadcastInDim S3300000x1 ![0] bcast_S3300000_S3300000x1_0 (nrm D rw cl))))

/-- relu(aggW16(X·W1) + b1). -/
def hiddenR (x0 : FVec Ideal S100000x512 .f32) (rw cl : IVec S3300000 32) (D : FVec Ideal S100000 .f32)
    (x2 : FVec Ideal S512x16 .f32) (x3 : FVec Ideal S16 .f32) : FVec Ideal S100000x16 .f32 :=
  maximumf (addf (aggW16 (Host.dotGeneral dot_S100000x512_S512x16_S100000x16_1_0_0_1_n_n none x0 x2) rw cl D)
      (broadcastInDim S100000x16 ![0, 1] bcast_S1x16_S100000x16_0_1 (broadcastInDim S1x16 ![1] bcast_S16_S1x16_1 x3)))
    (broadcastInDim S100000x16 ![] bcast_S_S100000x16 (constant (F := Ideal) S_ .f32 0x00000000#32))

/-- The reference's result array, for any two row-index vectors and any scaling. -/
def refArrOf (x0 : FVec Ideal S100000x512 .f32) (rw cl : IVec S3300000 32) (D : FVec Ideal S100000 .f32)
    (x2 : FVec Ideal S512x16 .f32) (x3 : FVec Ideal S16 .f32) (x4 : FVec Ideal S16x64 .f32) (x5 : FVec Ideal S64 .f32) :
    FVec Ideal S100000x64 .f32 :=
  addf (aggW64 (Host.dotGeneral dot_S100000x16_S16x64_S100000x64_1_0_0_1_n_n none (hiddenR x0 rw cl D x2 x3) x4) rw cl D)
    (broadcastInDim S100000x64 ![0, 1] bcast_S1x64_S100000x64_0_1 (broadcastInDim S1x64 ![1] bcast_S64_S1x64_1 x5))

/-- The reference's result array. -/
def refArr (x0 : FVec Ideal S100000x512 .f32) (x1 : IVec S2x3200000 32) (x2 : FVec Ideal S512x16 .f32) (x3 : FVec Ideal S16 .f32)
    (x4 : FVec Ideal S16x64 .f32) (x5 : FVec Ideal S64 .f32) : FVec Ideal S100000x64 .f32 :=
  refArrOf x0 (rowI x1) (colI x1) (dinv (colI x1)) x2 x3 x4 x5

/-- The run's composed term IS this function of the arguments. -/
theorem res_eq (m : (ℓ : Loc nD τ sig) → Buf (Elt Ideal) ℓ) (c : Dev nD) :
    Cert.ReferenceIdeal.ValueP.res_main_v94 m c
      = refArr (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v94
  rfl

end Cert.ReferenceIdeal.Stages

end
-- ==== Proof.GcnAlgebra.lean ====
import Mathlib.Data.EReal.Basic
import Mathlib.Data.EReal.Operations
import Mathlib.Algebra.BigOperators.Group.Finset.Basic
import Mathlib.Algebra.BigOperators.Group.Finset.Sigma
import Mathlib.Algebra.BigOperators.Ring.Finset
import Mathlib.Tactic.Ring

/-!
# A two-layer graph convolution written two ways, over the extended reals

`N` nodes, `T` edges, `K0` input features, `C` hidden features, `J` outputs.
`E v ⊆ Fin T` is the set of edges landing on node `v`, `r e` is the node that edge `e`
reads, and `cn e` is the node on which `e` is believed to land; `D` is the per-node
scaling (degree to the power `-1/2`).

* The first form (`kerHidden`, `kerOut`) scales every gathered row by `D (r e)` before
  summing over the edges of `v`, and scales the sum by `D v` afterwards; its hidden layer
  carries one extra factor `D v`, which is the pre-scaling of the second layer.
* The second form (`refHidden`, `refOut`) multiplies every edge term by the edge weight
  `D (r e) * D (cn e)`.

When `cn e = v` for every `e ∈ E v` and every entry of `x, w1, b1, w2, D` is a real
number, the two outputs agree (`kerOut_eq_refOut`).  The extended reals are not
distributive at the infinities, which is why finiteness is assumed; the last bias `b2`
is added last on both sides and needs no hypothesis.

The proof lifts every finite entry to `ℝ`, shows that each extended-real expression is
the coercion of the same expression over `ℝ` (`*_coe`), and proves the identity in `ℝ`:
`kerHiddenR v c = refHiddenR v c * D v` (`kerHiddenR_eq`), then the output identity by
distributing the products over the sums and exchanging the two sums (`kerOutR_eq`).
-/

noncomputable section

open Finset

namespace Cert.Gcn

variable {N T K0 C J : ℕ}

/-! ## The two forms over the extended reals -/

/-- The feature transform `x · w1` at node `u`, hidden feature `c`. -/
def xw (x : Fin N → Fin K0 → EReal) (w1 : Fin K0 → Fin C → EReal) (u : Fin N) (c : Fin C) :
    EReal :=
  ∑ k0, x u k0 * w1 k0 c

/-- First form, hidden layer (already carrying the pre-scaling `D v` of the next layer). -/
def kerHidden (E : Fin N → Finset (Fin T)) (r : Fin T → Fin N)
    (x : Fin N → Fin K0 → EReal) (w1 : Fin K0 → Fin C → EReal) (b1 : Fin C → EReal)
    (D : Fin N → EReal) (v : Fin N) (c : Fin C) : EReal :=
  max ((∑ e ∈ E v, xw x w1 (r e) c * D (r e)) * D v + b1 c) 0 * D v

/-- First form, output layer. -/
def kerOut (E : Fin N → Finset (Fin T)) (r : Fin T → Fin N)
    (x : Fin N → Fin K0 → EReal) (w1 : Fin K0 → Fin C → EReal) (b1 : Fin C → EReal)
    (w2 : Fin C → Fin J → EReal) (b2 : Fin J → EReal)
    (D : Fin N → EReal) (v : Fin N) (j : Fin J) : EReal :=
  (∑ k, ((∑ e ∈ E v, kerHidden E r x w1 b1 D (r e) k) * D v) * w2 k j) + b2 j

/-- Second form, hidden layer. -/
def refHidden (E : Fin N → Finset (Fin T)) (r cn : Fin T → Fin N)
    (x : Fin N → Fin K0 → EReal) (w1 : Fin K0 → Fin C → EReal) (b1 : Fin C → EReal)
    (D : Fin N → EReal) (v : Fin N) (c : Fin C) : EReal :=
  max ((∑ e ∈ E v, xw x w1 (r e) c * (D (r e) * D (cn e))) + b1 c) 0

/-- Second form, output layer. -/
def refOut (E : Fin N → Finset (Fin T)) (r cn : Fin T → Fin N)
    (x : Fin N → Fin K0 → EReal) (w1 : Fin K0 → Fin C → EReal) (b1 : Fin C → EReal)
    (w2 : Fin C → Fin J → EReal) (b2 : Fin J → EReal)
    (D : Fin N → EReal) (v : Fin N) (j : Fin J) : EReal :=
  (∑ e ∈ E v, (∑ k, refHidden E r cn x w1 b1 D (r e) k * w2 k j) * (D (r e) * D (cn e))) + b2 j

/-! ## The same expressions over the reals (without the last bias) -/

/-- `x · w1` over `ℝ`. -/
def xwR (x : Fin N → Fin K0 → ℝ) (w1 : Fin K0 → Fin C → ℝ) (u : Fin N) (c : Fin C) : ℝ :=
  ∑ k0, x u k0 * w1 k0 c

/-- First form, hidden layer, over `ℝ`. -/
def kerHiddenR (E : Fin N → Finset (Fin T)) (r : Fin T → Fin N)
    (x : Fin N → Fin K0 → ℝ) (w1 : Fin K0 → Fin C → ℝ) (b1 : Fin C → ℝ)
    (D : Fin N → ℝ) (v : Fin N) (c : Fin C) : ℝ :=
  max ((∑ e ∈ E v, xwR x w1 (r e) c * D (r e)) * D v + b1 c) 0 * D v

/-- First form, output layer without the last bias, over `ℝ`. -/
def kerOutR (E : Fin N → Finset (Fin T)) (r : Fin T → Fin N)
    (x : Fin N → Fin K0 → ℝ) (w1 : Fin K0 → Fin C → ℝ) (b1 : Fin C → ℝ)
    (w2 : Fin C → Fin J → ℝ) (D : Fin N → ℝ) (v : Fin N) (j : Fin J) : ℝ :=
  ∑ k, ((∑ e ∈ E v, kerHiddenR E r x w1 b1 D (r e) k) * D v) * w2 k j

/-- Second form, hidden layer, over `ℝ`. -/
def refHiddenR (E : Fin N → Finset (Fin T)) (r cn : Fin T → Fin N)
    (x : Fin N → Fin K0 → ℝ) (w1 : Fin K0 → Fin C → ℝ) (b1 : Fin C → ℝ)
    (D : Fin N → ℝ) (v : Fin N) (c : Fin C) : ℝ :=
  max ((∑ e ∈ E v, xwR x w1 (r e) c * (D (r e) * D (cn e))) + b1 c) 0

/-- Second form, output layer without the last bias, over `ℝ`. -/
def refOutR (E : Fin N → Finset (Fin T)) (r cn : Fin T → Fin N)
    (x : Fin N → Fin K0 → ℝ) (w1 : Fin K0 → Fin C → ℝ) (b1 : Fin C → ℝ)
    (w2 : Fin C → Fin J → ℝ) (D : Fin N → ℝ) (v : Fin N) (j : Fin J) : ℝ :=
  ∑ e ∈ E v, (∑ k, refHiddenR E r cn x w1 b1 D (r e) k * w2 k j) * (D (r e) * D (cn e))

/-! ## The identity over the reals -/

section Real

variable (E : Fin N → Finset (Fin T)) (r cn : Fin T → Fin N)
  (x : Fin N → Fin K0 → ℝ) (w1 : Fin K0 → Fin C → ℝ) (b1 : Fin C → ℝ)
  (w2 : Fin C → Fin J → ℝ) (D : Fin N → ℝ)

/-- With `cn e = v` on `E v`, the edge-weighted sum factors as
`(∑ e, a e * D (r e)) * D v`. -/
theorem edge_sum_factor (hcn : ∀ v, ∀ e ∈ E v, cn e = v) (a : Fin T → ℝ) (v : Fin N) :
    ∑ e ∈ E v, a e * (D (r e) * D (cn e)) = (∑ e ∈ E v, a e * D (r e)) * D v := by
  rw [Finset.sum_mul]
  refine Finset.sum_congr rfl fun e he => ?_
  rw [hcn v e he, mul_assoc]

/-- The first hidden layer is the second one times `D v`. -/
theorem kerHiddenR_eq (hcn : ∀ v, ∀ e ∈ E v, cn e = v) (v : Fin N) (c : Fin C) :
    kerHiddenR E r x w1 b1 D v c = refHiddenR E r cn x w1 b1 D v c * D v := by
  unfold kerHiddenR refHiddenR
  rw [edge_sum_factor E r cn D hcn (fun e => xwR x w1 (r e) c) v]

/-- The two output layers (without the last bias) agree over `ℝ`. -/
theorem kerOutR_eq (hcn : ∀ v, ∀ e ∈ E v, cn e = v) (v : Fin N) (j : Fin J) :
    kerOutR E r x w1 b1 w2 D v j = refOutR E r cn x w1 b1 w2 D v j := by
  unfold kerOutR refOutR
  -- right side: put `cn e = v`, distribute, and exchange the two sums
  have hR : ∑ e ∈ E v, (∑ k, refHiddenR E r cn x w1 b1 D (r e) k * w2 k j) *
        (D (r e) * D (cn e))
      = ∑ k, ∑ e ∈ E v, refHiddenR E r cn x w1 b1 D (r e) k * w2 k j * (D (r e) * D v) := by
    rw [Finset.sum_comm]
    refine Finset.sum_congr rfl fun e he => ?_
    rw [hcn v e he, Finset.sum_mul]
  rw [hR]
  refine Finset.sum_congr rfl fun k _ => ?_
  rw [Finset.sum_mul, Finset.sum_mul]
  refine Finset.sum_congr rfl fun e _ => ?_
  rw [kerHiddenR_eq E r cn x w1 b1 D hcn (r e) k]
  ring

end Real

/-! ## Coercion lemmas -/

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion `ℝ → EReal` commutes with `max`. -/
theorem coe_max (a b : ℝ) : ((max a b : ℝ) : EReal) = max (a : EReal) (b : EReal) :=
  EReal.coe_strictMono.monotone.map_max

/-- A family of extended reals none of which is infinite is the coercion of a real family. -/
theorem exists_real₁ {α : Type*} (f : α → EReal) (h : ∀ a, f a ≠ ⊤ ∧ f a ≠ ⊥) :
    ∃ g : α → ℝ, f = fun a => (g a : EReal) :=
  ⟨fun a => (f a).toReal, funext fun a => (EReal.coe_toReal (h a).1 (h a).2).symm⟩

/-- Two-index version of `exists_real₁`. -/
theorem exists_real₂ {α β : Type*} (f : α → β → EReal) (h : ∀ a b, f a b ≠ ⊤ ∧ f a b ≠ ⊥) :
    ∃ g : α → β → ℝ, f = fun a b => (g a b : EReal) :=
  ⟨fun a b => (f a b).toReal,
    funext fun a => funext fun b => (EReal.coe_toReal (h a b).1 (h a b).2).symm⟩

section Coe

variable (E : Fin N → Finset (Fin T)) (r cn : Fin T → Fin N)
  (x : Fin N → Fin K0 → ℝ) (w1 : Fin K0 → Fin C → ℝ) (b1 : Fin C → ℝ)
  (w2 : Fin C → Fin J → ℝ) (D : Fin N → ℝ)

theorem xw_coe (u : Fin N) (c : Fin C) :
    xw (fun u k => (x u k : EReal)) (fun k c => (w1 k c : EReal)) u c
      = ((xwR x w1 u c : ℝ) : EReal) := by
  simp only [xw, xwR, coe_sum, EReal.coe_mul]

theorem kerHidden_coe (v : Fin N) (c : Fin C) :
    kerHidden E r (fun u k => (x u k : EReal)) (fun k c => (w1 k c : EReal))
        (fun c => (b1 c : EReal)) (fun v => (D v : EReal)) v c
      = ((kerHiddenR E r x w1 b1 D v c : ℝ) : EReal) := by
  simp only [kerHidden, kerHiddenR, xw_coe, coe_sum, coe_max, EReal.coe_mul, EReal.coe_add,
    EReal.coe_zero]

theorem refHidden_coe (v : Fin N) (c : Fin C) :
    refHidden E r cn (fun u k => (x u k : EReal)) (fun k c => (w1 k c : EReal))
        (fun c => (b1 c : EReal)) (fun v => (D v : EReal)) v c
      = ((refHiddenR E r cn x w1 b1 D v c : ℝ) : EReal) := by
  simp only [refHidden, refHiddenR, xw_coe, coe_sum, coe_max, EReal.coe_mul, EReal.coe_add,
    EReal.coe_zero]

theorem kerOut_coe (b2 : Fin J → EReal) (v : Fin N) (j : Fin J) :
    kerOut E r (fun u k => (x u k : EReal)) (fun k c => (w1 k c : EReal))
        (fun c => (b1 c : EReal)) (fun k j => (w2 k j : EReal)) b2 (fun v => (D v : EReal)) v j
      = ((kerOutR E r x w1 b1 w2 D v j : ℝ) : EReal) + b2 j := by
  simp only [kerOut, kerOutR, kerHidden_coe, coe_sum, EReal.coe_mul]

theorem refOut_coe (b2 : Fin J → EReal) (v : Fin N) (j : Fin J) :
    refOut E r cn (fun u k => (x u k : EReal)) (fun k c => (w1 k c : EReal))
        (fun c => (b1 c : EReal)) (fun k j => (w2 k j : EReal)) b2 (fun v => (D v : EReal)) v j
      = ((refOutR E r cn x w1 b1 w2 D v j : ℝ) : EReal) + b2 j := by
  simp only [refOut, refOutR, refHidden_coe, coe_sum, EReal.coe_mul]

end Coe

/-! ## The identity over the extended reals -/

/-- The two forms of the two-layer graph convolution agree when every edge of `E v` is
known to land on `v` and every entry other than the last bias is a real number. -/
theorem kerOut_eq_refOut (E : Fin N → Finset (Fin T)) (r cn : Fin T → Fin N)
    (hcn : ∀ v, ∀ e ∈ E v, cn e = v)
    (x : Fin N → Fin K0 → EReal) (w1 : Fin K0 → Fin C → EReal) (b1 : Fin C → EReal)
    (w2 : Fin C → Fin J → EReal) (b2 : Fin J → EReal) (D : Fin N → EReal)
    (hx : ∀ u k, x u k ≠ ⊤ ∧ x u k ≠ ⊥) (hw1 : ∀ k c, w1 k c ≠ ⊤ ∧ w1 k c ≠ ⊥)
    (hb1 : ∀ c, b1 c ≠ ⊤ ∧ b1 c ≠ ⊥) (hw2 : ∀ k j, w2 k j ≠ ⊤ ∧ w2 k j ≠ ⊥)
    (hD : ∀ v, D v ≠ ⊤ ∧ D v ≠ ⊥) (v : Fin N) (j : Fin J) :
    kerOut E r x w1 b1 w2 b2 D v j = refOut E r cn x w1 b1 w2 b2 D v j := by
  obtain ⟨xr, rfl⟩ := exists_real₂ x hx
  obtain ⟨w1r, rfl⟩ := exists_real₂ w1 hw1
  obtain ⟨b1r, rfl⟩ := exists_real₁ b1 hb1
  obtain ⟨w2r, rfl⟩ := exists_real₂ w2 hw2
  obtain ⟨Dr, rfl⟩ := exists_real₁ D hD
  rw [kerOut_coe, refOut_coe, kerOutR_eq E r cn xr w1r b1r w2r Dr hcn v j]

end Cert.Gcn
-- ==== Proof.LibGatherRows.lean ====
/-
  GATHER OF ROWS, READ AT AN ENTRY.

  A StableHLO gather that takes whole rows of a matrix `x : [N, C]` at a column of start indices
  `idx : [T, 1]` (offset axis 1, collapsed axis 0, start index map `[0]`, index vector on axis 1, slice
  sizes `[1, C]`) has at entry `(e, c)` the value `x[r, c]`, where `r` is the start index `idx[e, 0]` read
  as a signed integer and clamped into `[0, N - 1]` (`gather_rows_apply`).  The same gather of a vector
  `x : [N]` (no offset axis, slice sizes `[1]`) has at entry `e` the value `x[r]` (`gather_vec_apply`).

  Each is proved first for the record written out with these fields (`rowsDims`, `vecDims`) and then
  stated for ANY record of dimension numbers whose fields are the ones above, so that it applies to a
  record however it was written down.
-/
import Idealize.ShloMosaic.Lib.ValueIdx

noncomputable section

namespace Cert.GatherRows

open Idealize.ShloMosaic Idealize.ShloMosaic.ValueIdx

/-- the operand row an edge reads: its start index read signed and clamped into [0, N-1] -/
def rowAt {T w : ℕ} (N : ℕ) (hN : 0 < N) (idx : IVec ⟨2, ![T, 1]⟩ w) (e : Fin T) : Fin N :=
  ⟨min (idx (ix2 e (0 : Fin 1))).toInt.toNat (N - 1), by omega⟩

/-! ## Rows of a matrix -/

/-- The dimension numbers of a gather of rows: operand `[N, C]`, start indices `[T, 1]`, result `[T, C]`. -/
abbrev rowsDims (N C T : ℕ)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-- The start-indices entry result entry `(e, c)` reads: `(e, 0)`. -/
theorem rowsDims_siIdx {N C T : ℕ}
    (wf : GatherDims.WF ⟨2, ![N, C]⟩ ⟨2, ![T, 1]⟩ ⟨2, ![T, C]⟩ [1] [0] [] [0] [] 1 ![1, C])
    (e : Fin T) (c : Fin C) :
    (rowsDims N C T wf).siIdx (ix2 e c) ⟨List.idxOf (0 : Fin 2) (rowsDims N C T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of rows at the written-out record, read at an entry. -/
theorem gather_rowsDims_apply {α : Type} {N C T w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (c : Fin C) :
    Host.gather (rowsDims N C T wf) x idx (ix2 e c) = x (ix2 (rowAt N hN idx e) c) := by
  unfold Host.gather
  congr 1
  funext a
  refine Fin.ext ?_
  match a with
  | ⟨0, _⟩ =>
    -- the row axis: the clamped start, no batching and no offset coordinate
    show (rowsDims N C T wf).start (ix2 e c) idx 0 + (rowsDims N C T wf).batchCoord (ix2 e c) 0
      + (rowsDims N C T wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C T wf).startIndexMap from List.mem_singleton.mpr rfl)]
    rw [rowsDims_siIdx wf e c]
    rfl
  | ⟨1, _⟩ =>
    -- the column axis: start 0, no batching coordinate, the offset coordinate is the result's column
    show (rowsDims N C T wf).start (ix2 e c) idx 1 + (rowsDims N C T wf).batchCoord (ix2 e c) 1
      + (rowsDims N C T wf).offCoord (ix2 e c) 1 = c.val
    rw [GatherDims.batchCoord_eq_zero _ _ _ List.not_mem_nil]
    unfold GatherDims.start
    rw [dif_neg (show (1 : Fin 2) ∉ (rowsDims N C T wf).startIndexMap from
      fun h => Nat.one_ne_zero (congrArg Fin.val (List.mem_singleton.mp h)))]
    simp only [Nat.add_zero, Nat.zero_add]
    rfl

/-- THE GATHER OF ROWS READ AT `(e, c)`: row `rowAt N hN idx e` of the operand, column `c`; for any record
    with these dimension numbers. -/
theorem gather_rows_apply {α : Type} {N C T w : ℕ} (hN : 0 < N)
    (d : GatherDims ⟨2, ![N, C]⟩ ⟨2, ![T, 1]⟩ ⟨2, ![T, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![T, 1]⟩ w) (e : Fin T) (c : Fin C) :
    Host.gather d x idx (ix2 e c) = x (ix2 (rowAt N hN idx e) c) := by
  obtain ⟨od, cd, ob, sb, sm, iv, ss, wf⟩ := d
  simp only at h1 h2 h3 h4 h5 h6 h7
  subst h1 h2 h3 h4 h5 h6 h7
  exact gather_rowsDims_apply hN wf x idx e c

/-! ## Entries of a vector -/

/-- The dimension numbers of the same gather of a vector: operand `[N]`, start indices `[T, 1]`, result `[T]`. -/
abbrev vecDims (N T : ℕ)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The start-indices entry result entry `e` reads: `(e, 0)`. -/
theorem vecDims_siIdx {N T : ℕ}
    (wf : GatherDims.WF ⟨1, ![N]⟩ ⟨2, ![T, 1]⟩ ⟨1, ![T]⟩ [] [0] [] [0] [] 1 ![1]) (e : Fin T) :
    (vecDims N T wf).siIdx (ix1 e) ⟨List.idxOf (0 : Fin 1) (vecDims N T wf).startIndexMap,
      List.idxOf_lt_length_iff.2 (List.mem_singleton.mpr rfl)⟩ = ix2 e (0 : Fin 1) := by
  funext b; refine Fin.ext ?_
  match b with
  | ⟨0, _⟩ => rfl
  | ⟨1, _⟩ => rfl

/-- The gather of a vector at the written-out record, read at an entry. -/
theorem gather_vecDims_apply {α : Type} {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecDims N T wf) x idx (ix1 e) = x (ix1 (rowAt N hN idx e)) := by
  unfold Host.gather
  congr 1
  funext a
  obtain rfl : a = 0 := Subsingleton.elim _ _
  refine Fin.ext ?_
  show (vecDims N T wf).start (ix1 e) idx 0 + (vecDims N T wf).batchCoord (ix1 e) 0
    + (vecDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N T wf).startIndexMap from List.mem_singleton.mpr rfl)]
  rw [vecDims_siIdx wf e]
  rfl

/-- THE GATHER OF A VECTOR READ AT `e`: entry `rowAt N hN idx e` of the operand; for any record with these
    dimension numbers. -/
theorem gather_vec_apply {α : Type} {N T w : ℕ} (hN : 0 < N)
    (d : GatherDims ⟨1, ![N]⟩ ⟨2, ![T, 1]⟩ ⟨1, ![T]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![T, 1]⟩ w) (e : Fin T) :
    Host.gather d x idx (ix1 e) = x (ix1 (rowAt N hN idx e)) := by
  obtain ⟨od, cd, ob, sb, sm, iv, ss, wf⟩ := d
  simp only at h1 h2 h3 h4 h5 h6 h7
  subst h1 h2 h3 h4 h5 h6 h7
  exact gather_vecDims_apply hN wf x idx e

end Cert.GatherRows

end
-- ==== Proof.LibScatterRows.lean ====
/-
  SCATTER-ADD OF ROWS, READ AT AN ENTRY, AT THE IDEAL INSTANCE.

  A StableHLO scatter with an `add` body that adds whole rows `upd : [T, C]` into a matrix `x : [N, C]` at a
  column of scatter indices `idx : [T, 1]` (update window axis 1, inserted window axis 0, scatter axis to
  operand axis `[0]`, index vector on axis 1) has at entry `(v, c)`, over the extended reals, the value
  `x[v, c] + ∑ upd[e, c]` over the edges `e` whose scatter index `idx[e, 0]`, read as a signed integer and
  NOT clamped, is the row `v` (`scatterAdd_rows_apply`): an index outside `[0, N - 1]` lands nowhere.  The
  same scatter of a vector `upd : [T]` into `x : [N]` (no window axis) has at entry `v` the value
  `x[v] + ∑ upd[e]` over the same edges (`scatterAdd_vec_apply`).

  The route: an update entry lands on an operand entry exactly when on every axis its start plus its window
  coordinate is that entry's coordinate (`resultIdx?_eq_some_iff`); on these dimension numbers that says
  "the scatter index is the row, and the column is the same" (`rowsDims_lands_iff`), so the set of update
  entries landing on `(v, c)` is the image of the landing edges under `e ↦ (e, c)`.

  Each theorem is proved first for the record written out with these fields (`rowsDims`, `vecDims`) and
  then stated for ANY record of dimension numbers with these fields.
-/
import Idealize.ShloMosaic.Lib.ValueIdx
import Idealize.ShloMosaic.PureOps.Ideal

noncomputable section

open scoped BigOperators

namespace Cert.ScatterRows

open Idealize.ShloMosaic Idealize.ShloMosaic.ValueIdx

/-- the edges whose scatter index, read signed and NOT clamped, is the row v -/
def landing {T w : ℕ} (idx : IVec ⟨2, ![T, 1]⟩ w) (v : ℕ) : Finset (Fin T) :=
  Finset.univ.filter fun e => (idx (ix2 e (0 : Fin 1))).toInt = (v : ℤ)

/-! ## Where an update entry lands, for any dimension numbers -/

/-- An update entry `j` lands on the operand entry `i` exactly when, on every operand axis, its start plus its
    window coordinate is `i`'s coordinate. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro hs a
    split at hs
    · rename_i h
      have h' := congrArg (fun f => ((f a).val : ℕ)) (Option.some.inj hs)
      simp only at h'
      have := (h a).1
      omega
    · exact absurd hs (by simp)
  · intro hi
    have h : ∀ a, 0 ≤ d.start j idx a + (d.window j a : ℤ) ∧ d.start j idx a + (d.window j a : ℤ) < s.size a := by
      intro a
      have h1 := hi a
      have h2 := (i a).isLt
      constructor <;> omega
    rw [dif_pos h]
    congr 1
    funext a
    refine Fin.ext ?_
    have h1 := hi a
    show (d.start j idx a + (d.window j a : ℤ)).toNat = (i a).val
    omega

/-! ## Rows of a matrix -/

/-- The dimension numbers of a scatter of rows: operand `[N, C]`, scatter indices `[T, 1]`, updates `[T, C]`. -/
abbrev rowsDims (N C T : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

section Rows
variable {N C T w : ℕ} (wf : ScatterDims.WF ⟨2, ![N, C]⟩ ⟨2, ![T, 1]⟩ ⟨2, ![T, C]⟩ [1] [0] [0] 1)

/-- The scatter-indices entry update entry `(e, c')` reads: `(e, 0)`. -/
theorem rowsDims_siIdx (e : Fin T) (c' : Fin C) :
    (rowsDims N C T wf).siIdx (ix2 e c') ⟨List.idxOf (0 : Fin 2) (rowsDims N C T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the row axis the start is the scatter index read signed … -/
theorem rowsDims_start0 (idx : IVec ⟨2, ![T, 1]⟩ w) (e : Fin T) (c' : Fin C) :
    (rowsDims N C T wf).start (ix2 e c') idx 0 = (idx (ix2 e (0 : Fin 1))).toInt := by
  unfold ScatterDims.start
  rw [dif_pos (show (0 : Fin 2) ∈ (rowsDims N C T wf).scatterDimsToOperandDims from List.mem_singleton.mpr rfl)]
  rw [rowsDims_siIdx wf e c']

/-- … and on the column axis it is `0`. -/
theorem rowsDims_start1 (idx : IVec ⟨2, ![T, 1]⟩ w) (e : Fin T) (c' : Fin C) :
    (rowsDims N C T wf).start (ix2 e c') idx 1 = 0 := by
  unfold ScatterDims.start
  rw [dif_neg (show (1 : Fin 2) ∉ (rowsDims N C T wf).scatterDimsToOperandDims from
    fun h => Nat.one_ne_zero (congrArg Fin.val (List.mem_singleton.mp h)))]

/-- The window coordinate is `0` on the row axis (an inserted axis) … -/
theorem rowsDims_window0 (e : Fin T) (c' : Fin C) : (rowsDims N C T wf).window (ix2 e c') 0 = 0 := rfl

/-- … and the update's column on the column axis. -/
theorem rowsDims_window1 (e : Fin T) (c' : Fin C) : (rowsDims N C T wf).window (ix2 e c') 1 = c'.val := rfl

/-- Update entry `(e, c')` lands on operand entry `(v, c)` exactly when the scatter index of `e`, read signed, is
    `v` and the columns agree. -/
theorem rowsDims_lands_iff (idx : IVec ⟨2, ![T, 1]⟩ w) (e : Fin T) (c' : Fin C) (v : Fin N) (c : Fin C) :
    (rowsDims N C T wf).resultIdx? (ix2 e c') idx = some (ix2 v c)
      ↔ (idx (ix2 e (0 : Fin 1))).toInt = (v.val : ℤ) ∧ c' = c := by
  rw [resultIdx?_eq_some_iff]
  constructor
  · intro h
    have h0 := h 0
    have h1 := h 1
    rw [rowsDims_start0, rowsDims_window0] at h0
    rw [rowsDims_start1, rowsDims_window1] at h1
    refine ⟨?_, Fin.ext ?_⟩
    · have : (((ix2 v c : (⟨2, ![N, C]⟩ : Shape).Idx) 0).val : ℤ) = (v.val : ℤ) := rfl
      omega
    · have : (((ix2 v c : (⟨2, ![N, C]⟩ : Shape).Idx) 1).val : ℤ) = (c.val : ℤ) := rfl
      omega
  · rintro ⟨h0, rfl⟩ a
    match a with
    | ⟨0, _⟩ =>
      show (rowsDims N C T wf).start (ix2 e c') idx 0 + ((rowsDims N C T wf).window (ix2 e c') 0 : ℤ) = (v.val : ℤ)
      rw [rowsDims_start0, rowsDims_window0, h0]; simp
    | ⟨1, _⟩ =>
      show (rowsDims N C T wf).start (ix2 e c') idx 1 + ((rowsDims N C T wf).window (ix2 e c') 1 : ℤ) = (c'.val : ℤ)
      rw [rowsDims_start1, rowsDims_window1]; simp

/-- The update entries landing on `(v, c)` are the entries `(e, c)` of the landing edges `e`. -/
theorem rowsDims_filter_eq (idx : IVec ⟨2, ![T, 1]⟩ w) (v : Fin N) (c : Fin C) :
    (Finset.univ.filter fun j => (rowsDims N C T wf).resultIdx? j idx = some (ix2 v c))
      = (landing idx v.val).map ⟨fun e => (ix2 e c : (⟨2, ![T, C]⟩ : Shape).Idx),
          fun e e' h => congrFun h 0⟩ := by
  ext j
  obtain ⟨e, c', rfl⟩ : ∃ e c', j = ix2 e c' := ⟨j 0, j 1, eq_ix2 j⟩
  simp only [Finset.mem_filter, Finset.mem_univ, true_and, Finset.mem_map, Function.Embedding.coeFn_mk, landing]
  rw [rowsDims_lands_iff]
  constructor
  · rintro ⟨h, rfl⟩
    exact ⟨e, h, rfl⟩
  · rintro ⟨e', h, he⟩
    have h0 : e' = e := congrFun he 0
    have h1 : c = c' := congrFun he 1
    subst h0 h1
    exact ⟨h, rfl⟩

/-- The scatter-add of rows at the written-out record, read at an entry. -/
theorem scatterAdd_rowsDims_apply {φ : FTy} (x : FVec Ideal ⟨2, ![N, C]⟩ φ) (idx : IVec ⟨2, ![T, 1]⟩ w)
    (upd : FVec Ideal ⟨2, ![T, C]⟩ φ) (v : Fin N) (c : Fin C) :
    Host.scatterAdd (rowsDims N C T wf) x idx upd (ix2 v c) = x (ix2 v c) + ∑ e ∈ landing idx v.val, upd (ix2 e c) := by
  show Ideal.hostScatterAdd (rowsDims N C T wf) x idx upd (ix2 v c) = _
  unfold Ideal.hostScatterAdd
  rw [rowsDims_filter_eq wf idx v c, Finset.sum_map]
  rfl

end Rows

/-- THE SCATTER-ADD OF ROWS READ AT `(v, c)`: the operand's entry plus the updates' column-`c` entries over the edges
    landing on row `v`; for any record with these dimension numbers. -/
theorem scatterAdd_rows_apply {N C T w : ℕ} {φ : FTy} (d : ScatterDims ⟨2, ![N, C]⟩ ⟨2, ![T, 1]⟩ ⟨2, ![T, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![T, 1]⟩ w) (upd : FVec Ideal ⟨2, ![T, C]⟩ φ)
    (v : Fin N) (c : Fin C) :
    Host.scatterAdd d x idx upd (ix2 v c) = x (ix2 v c) + ∑ e ∈ landing idx v.val, upd (ix2 e c) := by
  obtain ⟨uw, iw, sd, iv, wf⟩ := d
  simp only at h1 h2 h3 h4
  subst h1 h2 h3 h4
  exact scatterAdd_rowsDims_apply wf x idx upd v c

/-! ## Entries of a vector -/

/-- The dimension numbers of the same scatter of a vector: operand `[N]`, scatter indices `[T, 1]`, updates `[T]`. -/
abbrev vecDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section Vec
variable {N T w : ℕ} (wf : ScatterDims.WF ⟨1, ![N]⟩ ⟨2, ![T, 1]⟩ ⟨1, ![T]⟩ [] [0] [0] 1)

/-- The scatter-indices entry update entry `e` reads: `(e, 0)`. -/
theorem vecDims_siIdx (e : Fin T) :
    (vecDims N T wf).siIdx (ix1 e) ⟨List.idxOf (0 : Fin 1) (vecDims N T wf).scatterDimsToOperandDims,
      List.idxOf_lt_length_iff.2 (List.mem_singleton.mpr rfl)⟩ = ix2 e (0 : Fin 1) := by
  funext b; refine Fin.ext ?_
  match b with
  | ⟨0, _⟩ => rfl
  | ⟨1, _⟩ => rfl

/-- On the one operand axis the start is the scatter index read signed … -/
theorem vecDims_start0 (idx : IVec ⟨2, ![T, 1]⟩ w) (e : Fin T) :
    (vecDims N T wf).start (ix1 e) idx 0 = (idx (ix2 e (0 : Fin 1))).toInt := by
  unfold ScatterDims.start
  rw [dif_pos (show (0 : Fin 1) ∈ (vecDims N T wf).scatterDimsToOperandDims from List.mem_singleton.mpr rfl)]
  rw [vecDims_siIdx wf e]

/-- … and the window coordinate is `0` (an inserted axis). -/
theorem vecDims_window0 (e : Fin T) : (vecDims N T wf).window (ix1 e) 0 = 0 := rfl

/-- Update entry `e` lands on operand entry `v` exactly when its scatter index, read signed, is `v`. -/
theorem vecDims_lands_iff (idx : IVec ⟨2, ![T, 1]⟩ w) (e : Fin T) (v : Fin N) :
    (vecDims N T wf).resultIdx? (ix1 e) idx = some (ix1 v) ↔ (idx (ix2 e (0 : Fin 1))).toInt = (v.val : ℤ) := by
  rw [resultIdx?_eq_some_iff]
  constructor
  · intro h
    have h0 := h 0
    rw [vecDims_start0, vecDims_window0] at h0
    have : (((ix1 v : (⟨1, ![N]⟩ : Shape).Idx) 0).val : ℤ) = (v.val : ℤ) := rfl
    omega
  · intro h0 a
    obtain rfl : a = 0 := Subsingleton.elim _ _
    show (vecDims N T wf).start (ix1 e) idx 0 + ((vecDims N T wf).window (ix1 e) 0 : ℤ) = (v.val : ℤ)
    rw [vecDims_start0, vecDims_window0, h0]; simp

/-- The update entries landing on `v` are the landing edges. -/
theorem vecDims_filter_eq (idx : IVec ⟨2, ![T, 1]⟩ w) (v : Fin N) :
    (Finset.univ.filter fun j => (vecDims N T wf).resultIdx? j idx = some (ix1 v))
      = (landing idx v.val).map ⟨fun e => (ix1 e : (⟨1, ![T]⟩ : Shape).Idx), fun e e' h => congrFun h 0⟩ := by
  ext j
  obtain ⟨e, rfl⟩ : ∃ e, j = ix1 e := ⟨j 0, eq_ix1 j⟩
  simp only [Finset.mem_filter, Finset.mem_univ, true_and, Finset.mem_map, Function.Embedding.coeFn_mk, landing]
  rw [vecDims_lands_iff]
  constructor
  · intro h
    exact ⟨e, h, rfl⟩
  · rintro ⟨e', h, he⟩
    have h0 : e' = e := congrFun he 0
    subst h0
    exact h

/-- The scatter-add of a vector at the written-out record, read at an entry. -/
theorem scatterAdd_vecDims_apply {φ : FTy} (x : FVec Ideal ⟨1, ![N]⟩ φ) (idx : IVec ⟨2, ![T, 1]⟩ w)
    (upd : FVec Ideal ⟨1, ![T]⟩ φ) (v : Fin N) :
    Host.scatterAdd (vecDims N T wf) x idx upd (ix1 v) = x (ix1 v) + ∑ e ∈ landing idx v.val, upd (ix1 e) := by
  show Ideal.hostScatterAdd (vecDims N T wf) x idx upd (ix1 v) = _
  unfold Ideal.hostScatterAdd
  rw [vecDims_filter_eq wf idx v, Finset.sum_map]
  rfl

end Vec

/-- THE SCATTER-ADD OF A VECTOR READ AT `v`: the operand's entry plus the updates over the edges landing on `v`; for
    any record with these dimension numbers. -/
theorem scatterAdd_vec_apply {N T w : ℕ} {φ : FTy} (d : ScatterDims ⟨1, ![N]⟩ ⟨2, ![T, 1]⟩ ⟨1, ![T]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![T, 1]⟩ w) (upd : FVec Ideal ⟨1, ![T]⟩ φ) (v : Fin N) :
    Host.scatterAdd d x idx upd (ix1 v) = x (ix1 v) + ∑ e ∈ landing idx v.val, upd (ix1 e) := by
  obtain ⟨uw, iw, sd, iv, wf⟩ := d
  simp only at h1 h2 h3 h4
  subst h1 h2 h3 h4
  exact scatterAdd_vecDims_apply wf x idx upd v

end Cert.ScatterRows

end
-- ==== Proof.LibBroadcastRows.lean ====
/-
  Reusable lemmas: how a host program repeats a vector down the rows of a matrix, read at an entry.

  jnp broadcasts a vector [b] against a matrix [M, b] in two steps: the vector viewed as one row, [b] -> [1, b]
  (`broadcast_in_dim` with dims [1]), and that row repeated down the M rows, [1, b] -> [M, b] (dims [0, 1]).
  At (p, c) the result is the vector's entry c, whatever the row p. Generic in M, b and in the element type.
-/
import Idealize.ShloMosaic.Lib.Pipeline.Value
import Idealize.ShloMosaic.Lib.ValueIdx

noncomputable section

namespace Cert.BroadcastRows

open Idealize.ShloMosaic Idealize.ShloMosaic.ValueIdx

variable {α : Type} {M b : ℕ}

/-- One row repeated down M rows reads, at (p, c), the row's entry c. -/
theorem row_apply (v : (⟨2, ![1, b]⟩ : Shape).Idx → α)
    (h : (⟨2, ![1, b]⟩ : Shape).BroadcastsInDim ⟨2, ![M, b]⟩ ![0, 1]) (p : Fin M) (c : Fin b) :
    broadcastInDim ⟨2, ![M, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector viewed as one row reads, at (u, c), the vector's entry c. -/
theorem unit_apply (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

end Cert.BroadcastRows

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.KerRead.lean ====
import proofs.«165002_j858993459363_2_alg».proof.Proof.KerStageDefs
import proofs.«165002_j858993459363_2_alg».proof.Proof.GcnAlgebra
import proofs.«165002_j858993459363_2_alg».proof.Proof.LibGatherRows
import proofs.«165002_j858993459363_2_alg».proof.Proof.LibScatterRows
import proofs.«165002_j858993459363_2_alg».proof.Proof.LibKeepdimsColumn
import proofs.«165002_j858993459363_2_alg».proof.Proof.LibBroadcastRows
import proofs.«165002_j858993459363_2_alg».proof.Proof.LibHostBroadcasts
import Idealize.ShloMosaic.Lib.ValueLayout
import Idealize.ShloMosaic.Lib.IdealHost

/-!
# The kernel program's result array, read at an entry

The kernel's result is the second region's function of `agg (hidden (first region's function))`.
Read at an entry `(v, j)`, stage by stage:

* the scaling as a column, and repeated along a row, reads the scaling of the row's node
  (`dcol_apply`, `dB_apply`);
* `agg Y` at `(v, c)` is the sum, over the edges landing on `v`, of `Y` at the row each edge
  reads (`agg_apply`): the scatter-add into zeros of the gathered rows;
* the first region's array at `(u, c)` is `(x · w1)[u, c] · D u` (`G0_apply`);
* `hidden` of it at `(v, c)` is `max ((∑_e (x · w1)[r e, c] · D (r e)) · D v + b1 c) 0 · D v`
  (`hidden_apply`);
* the second region's array of `agg` of that, at `(v, j)`, is
  `∑_k ((∑_e hidden[r e, k]) · D v) · w2[k, j] + b2 j` (`kerArrOf_apply`),

which is the first form of the two-layer graph convolution of the algebra file, with `E v` the
edges landing on `v` and `r e` the row edge `e` reads.
-/

set_option maxRecDepth 16384

noncomputable section

namespace Cert.KernelIdeal.Read'

open Cert.KernelIdeal Cert.KernelIdeal.Gen
open Idealize.ShloMosaic Idealize.ShloMosaic.ValueIdx

/-- The edges landing on node `v`. -/
abbrev EE (cl : IVec S3300000 32) : Fin 100000 → Finset (Fin 3300000) :=
  fun v => Cert.ScatterRows.landing (Stages.colB cl) v.val

/-- The row edge `e` reads. -/
abbrev RR (rw : IVec S3300000 32) : Fin 3300000 → Fin 100000 :=
  fun e => Cert.GatherRows.rowAt 100000 (by decide) (Stages.wrapB rw) e

/-- The scaling as a column reads, at `(P, 0)`, the scaling of node `P`. -/
theorem dcol_apply (D : FVec Ideal S100000 .f32) (P : Fin 100000) :
    Stages.dcol D (ix2 P (0 : Fin 1)) = D (ix1 P) := by
  unfold Stages.dcol
  exact Cert.KeepdimsColumn.shapeCast_a_a1_apply D _ P 0

/-- The scaling repeated along each row reads, at `(P, c)`, the scaling of node `P`. -/
theorem dB_apply (D : FVec Ideal S100000 .f32) (P : Fin 100000) (c : Fin 16) :
    Stages.dB D (ix2 P c) = D (ix1 P) := by
  unfold Stages.dB
  exact (Cert.HostBroadcasts.col_rows_apply _ _ P c).trans (Cert.HostBroadcasts.col_apply D _ P 0)

/-- `agg Y` at `(v, c)`: the sum over the edges landing on `v` of `Y` at the row each edge reads. -/
theorem agg_apply (Y : FVec Ideal S100000x16 .f32) (rw cl : IVec S3300000 32) (v : Fin 100000)
    (c : Fin 16) :
    Stages.agg Y rw cl (ix2 v c) = ∑ e ∈ EE cl v, Y (ix2 (RR rw e) c) := by
  unfold Stages.agg
  refine (Cert.ScatterRows.scatterAdd_rows_apply _ rfl rfl rfl rfl _ _ _ v c).trans ?_
  rw [Cert.HostBroadcasts.scalar_apply, constant_apply, Ideal.ofBits_zero_f32, zero_add]
  refine Finset.sum_congr rfl fun e _ => ?_
  exact Cert.GatherRows.gather_rows_apply (by decide) _ rfl rfl rfl rfl rfl rfl rfl Y _ e c

/-- The first region's array at `(u, c)`: `(x · w1)[u, c] · D u`. -/
theorem G0_apply (x0 : FVec Ideal S100000x512 .f32) (x2 : FVec Ideal S512x16 .f32)
    (D : FVec Ideal S100000 .f32) (u : Fin 100000) (c : Fin 16) :
    Reg0.G0 x0 x2 (Stages.dcol D) (ix2 u c)
      = Cert.Gcn.xw (N := 100000) (K0 := 512) (C := 16) (fun u k => x0 (ix2 u k))
          (fun k c => x2 (ix2 k c)) u c * D (ix1 u) := by
  show Reg0.g0 x0 x2 (Stages.dcol D) u c = _
  unfold Reg0.g0 Cert.Gcn.xw
  rw [dcol_apply]

/-- `hidden` of the first region's array at `(v, c)` is the hidden layer of the first form. -/
theorem hidden_apply (x0 : FVec Ideal S100000x512 .f32) (rw cl : IVec S3300000 32)
    (D : FVec Ideal S100000 .f32) (x2 : FVec Ideal S512x16 .f32) (x3 : FVec Ideal S16 .f32)
    (v : Fin 100000) (c : Fin 16) :
    Stages.hidden (Reg0.G0 x0 x2 (Stages.dcol D)) rw cl D x3 (ix2 v c)
      = Cert.Gcn.kerHidden (N := 100000) (T := 3300000) (K0 := 512) (C := 16) (EE cl) (RR rw)
          (fun u k => x0 (ix2 u k)) (fun k c => x2 (ix2 k c)) (fun c => x3 (ix1 c))
          (fun v => D (ix1 v)) v c := by
  unfold Stages.hidden Cert.Gcn.kerHidden
  rw [mulf_apply, maximumf_apply, addf_apply, mulf_apply, dB_apply, agg_apply,
    Cert.BroadcastRows.row_apply, Cert.BroadcastRows.unit_apply,
    Cert.HostBroadcasts.scalar_apply, constant_apply, Ideal.ofBits_zero_f32]
  refine congrArg (fun t => max (t * D (ix1 v) + x3 (ix1 c)) 0 * D (ix1 v)) ?_
  exact Finset.sum_congr rfl fun e _ => G0_apply x0 x2 D (RR rw e) c

/-- THE KERNEL'S RESULT ARRAY READ AT `(v, j)`: the first form of the two-layer graph convolution. -/
theorem kerArrOf_apply (x0 : FVec Ideal S100000x512 .f32) (rw cl : IVec S3300000 32)
    (D : FVec Ideal S100000 .f32) (x2 : FVec Ideal S512x16 .f32) (x3 : FVec Ideal S16 .f32)
    (x4 : FVec Ideal S16x64 .f32) (x5 : FVec Ideal S64 .f32) (v : Fin 100000) (j : Fin 64) :
    Stages.kerArrOf x0 rw cl D x2 x3 x4 x5 (ix2 v j)
      = Cert.Gcn.kerOut (N := 100000) (T := 3300000) (K0 := 512) (C := 16) (J := 64)
          (fun v => Cert.ScatterRows.landing (Stages.colB cl) v.val)
          (fun e => Cert.GatherRows.rowAt 100000 (by decide) (Stages.wrapB rw) e)
          (fun u k => x0 (ix2 u k)) (fun k c => x2 (ix2 k c)) (fun c => x3 (ix1 c))
          (fun k j => x4 (ix2 k j)) (fun j => x5 (ix1 j))
          (fun v => D (ix1 v)) v j := by
  unfold Stages.kerArrOf
  show Reg1.g1 _ (Stages.dcol D) x4 _ v j = _
  unfold Reg1.g1 Cert.Gcn.kerOut
  rw [dcol_apply, shapeCast_a_1a_apply]
  refine congrArg (· + x5 (ix1 j)) ?_
  refine Finset.sum_congr rfl fun k _ => ?_
  rw [agg_apply]
  refine congrArg (fun t => t * D (ix1 v) * x4 (ix2 k j)) ?_
  exact Finset.sum_congr rfl fun e _ => hidden_apply x0 rw cl D x2 x3 (RR rw e) k

end Cert.KernelIdeal.Read'
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«165002_j858993459363_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.RefRead.lean ====
/-
  THE REFERENCE'S RESULT ARRAY READ AT AN ENTRY.

  The reference computes a two-layer graph convolution stage by stage on whole arrays.  Read at one entry, every
  stage is a formula in the entries of its operands:
    nrm      at edge e:   D[r e] · D[cn e], the scalings of the row the edge reads and of the row it is believed to land on,
             both rows read through the wrapped, signed, clamped index (`rowAt`);
    aggW     at (v, c):   ∑ over the edges e landing on v of Z[r e, c] · nrm[e] — the leading zero splat adds nothing;
    hiddenR  at (v, c):   max (aggW16 (X·W1) [v, c] + b1[c]) 0, the second form's hidden layer;
  and the result at (v, j) is aggW64 (hiddenR·W2) [v, j] + b2[j], the second form's output layer (`refArrOf_apply`).
  The edges landing on v are those whose column index, read signed and not clamped, is v (`landing`).
-/
import proofs.«165002_j858993459363_2_alg».proof.Proof.RefStages
import proofs.«165002_j858993459363_2_alg».proof.Proof.GcnAlgebra
import proofs.«165002_j858993459363_2_alg».proof.Proof.LibGatherRows
import proofs.«165002_j858993459363_2_alg».proof.Proof.LibScatterRows
import proofs.«165002_j858993459363_2_alg».proof.Proof.LibDotNN
import proofs.«165002_j858993459363_2_alg».proof.Proof.LibBroadcastRows
import proofs.«165002_j858993459363_2_alg».proof.Proof.LibHostBroadcasts

noncomputable section

open scoped BigOperators

namespace Cert.ReferenceIdeal.Read'

open Cert.ReferenceIdeal Cert.ReferenceIdeal.Gen Idealize.ShloMosaic Idealize.ShloMosaic.ValueIdx

/-- The row an edge reads, through the wrapped index vector `r`. -/
abbrev rowOf (r : IVec S3300000 32) (e : Fin 3300000) : Fin 100000 :=
  Cert.GatherRows.rowAt 100000 (by decide) (Stages.wrapB r) e

/-- The per-edge factor: the scaling of the row read times the scaling of the row landed on. -/
theorem nrm_apply (D : FVec Ideal S100000 .f32) (rw cl : IVec S3300000 32) (e : Fin 3300000) :
    Stages.nrm D rw cl (ix1 e) = D (ix1 (rowOf rw e)) * D (ix1 (rowOf cl e)) := by
  unfold Stages.nrm
  rw [mulf_apply]
  rw [Cert.GatherRows.gather_vec_apply (by decide) _ rfl rfl rfl rfl rfl rfl rfl,
    Cert.GatherRows.gather_vec_apply (by decide) _ rfl rfl rfl rfl rfl rfl rfl]

/-- Gather rows of a 16-wide array, scale, add into the landing rows — read at an entry: the leading zero splat adds
    nothing, and what remains is the sum over the edges landing on `v`. -/
theorem aggW16_apply (Z : FVec Ideal S100000x16 .f32) (rw cl : IVec S3300000 32) (D : FVec Ideal S100000 .f32)
    (v : Fin 100000) (c : Fin 16) :
    Stages.aggW16 Z rw cl D (ix2 v c)
      = ∑ e ∈ Cert.ScatterRows.landing (Stages.colB cl) v.val, Z (ix2 (rowOf rw e) c) * Stages.nrm D rw cl (ix1 e) := by
  unfold Stages.aggW16
  rw [Cert.ScatterRows.scatterAdd_rows_apply _ rfl rfl rfl rfl]
  rw [Cert.HostBroadcasts.scalar_apply, constant_apply, Ideal.ofBits_zero_f32, zero_add]
  refine Finset.sum_congr rfl fun e _ => ?_
  rw [mulf_apply, Cert.GatherRows.gather_rows_apply (by decide) _ rfl rfl rfl rfl rfl rfl rfl,
    Cert.HostBroadcasts.col_rows_apply, Cert.HostBroadcasts.col_apply]

/-- The same for a 64-wide array. -/
theorem aggW64_apply (Z : FVec Ideal S100000x64 .f32) (rw cl : IVec S3300000 32) (D : FVec Ideal S100000 .f32)
    (v : Fin 100000) (j : Fin 64) :
    Stages.aggW64 Z rw cl D (ix2 v j)
      = ∑ e ∈ Cert.ScatterRows.landing (Stages.colB cl) v.val, Z (ix2 (rowOf rw e) j) * Stages.nrm D rw cl (ix1 e) := by
  unfold Stages.aggW64
  rw [Cert.ScatterRows.scatterAdd_rows_apply _ rfl rfl rfl rfl]
  rw [Cert.HostBroadcasts.scalar_apply, constant_apply, Ideal.ofBits_zero_f32, zero_add]
  refine Finset.sum_congr rfl fun e _ => ?_
  rw [mulf_apply, Cert.GatherRows.gather_rows_apply (by decide) _ rfl rfl rfl rfl rfl rfl rfl,
    Cert.HostBroadcasts.col_rows_apply, Cert.HostBroadcasts.col_apply]

/-- The hidden layer read at an entry: the second form's hidden layer, the max against the zero splat as `max _ 0`. -/
theorem hiddenR_apply (x0 : FVec Ideal S100000x512 .f32) (rw cl : IVec S3300000 32) (D : FVec Ideal S100000 .f32)
    (x2 : FVec Ideal S512x16 .f32) (x3 : FVec Ideal S16 .f32) (v : Fin 100000) (c : Fin 16) :
    Stages.hiddenR x0 rw cl D x2 x3 (ix2 v c)
      = Cert.Gcn.refHidden (N := 100000) (T := 3300000) (K0 := 512) (C := 16)
          (fun v => Cert.ScatterRows.landing (Stages.colB cl) v.val)
          (fun e => rowOf rw e) (fun e => rowOf cl e)
          (fun u k => x0 (ix2 u k)) (fun k c => x2 (ix2 k c)) (fun c => x3 (ix1 c))
          (fun v => D (ix1 v)) v c := by
  unfold Stages.hiddenR
  rw [maximumf_apply, addf_apply, aggW16_apply, Cert.BroadcastRows.row_apply, Cert.BroadcastRows.unit_apply,
    Cert.HostBroadcasts.scalar_apply, constant_apply, Ideal.ofBits_zero_f32]
  unfold Cert.Gcn.refHidden Cert.Gcn.xw
  refine congrArg (fun s => max (s + x3 (ix1 c)) 0) ?_
  refine Finset.sum_congr rfl fun e _ => ?_
  rw [Cert.DotNN.dotGeneral_apply dot_S100000x512_S512x16_S100000x16_1_0_0_1_n_n rfl, nrm_apply]

/-- THE REFERENCE'S RESULT READ AT `(v, j)`: the second form's output layer, over the edges landing on `v`. -/
theorem refArrOf_apply (x0 : FVec Ideal S100000x512 .f32) (rw cl : IVec S3300000 32) (D : FVec Ideal S100000 .f32)
    (x2 : FVec Ideal S512x16 .f32) (x3 : FVec Ideal S16 .f32) (x4 : FVec Ideal S16x64 .f32) (x5 : FVec Ideal S64 .f32)
    (v : Fin 100000) (j : Fin 64) :
    Stages.refArrOf x0 rw cl D x2 x3 x4 x5 (ix2 v j)
      = Cert.Gcn.refOut (N := 100000) (T := 3300000) (K0 := 512) (C := 16) (J := 64)
          (fun v => Cert.ScatterRows.landing (Stages.colB cl) v.val)
          (fun e => Cert.GatherRows.rowAt 100000 (by decide) (Stages.wrapB rw) e)
          (fun e => Cert.GatherRows.rowAt 100000 (by decide) (Stages.wrapB cl) e)
          (fun u k => x0 (ix2 u k)) (fun k c => x2 (ix2 k c)) (fun c => x3 (ix1 c)) (fun k j => x4 (ix2 k j)) (fun j => x5 (ix1 j))
          (fun v => D (ix1 v)) v j := by
  unfold Stages.refArrOf
  rw [addf_apply, aggW64_apply, Cert.BroadcastRows.row_apply, Cert.BroadcastRows.unit_apply]
  unfold Cert.Gcn.refOut
  refine congrArg (fun s => s + x5 (ix1 j)) ?_
  refine Finset.sum_congr rfl fun e _ => ?_
  rw [Cert.DotNN.dotGeneral_apply dot_S100000x16_S16x64_S100000x64_1_0_0_1_n_n rfl, nrm_apply]
  refine congrArg (fun s => s * (D (ix1 (rowOf rw e)) * D (ix1 (rowOf cl e)))) ?_
  refine Finset.sum_congr rfl fun k _ => ?_
  rw [hiddenR_apply]

end Cert.ReferenceIdeal.Read'

end
-- ==== Proof.LibWrapIndex.lean ====
import proofs.«165002_j858993459363_2_alg».proof.Proof.LibGatherRows
import proofs.«165002_j858993459363_2_alg».proof.Proof.LibScatterRows
import Idealize.ShloMosaic.Lib.ValueIdx
import Idealize.ShloMosaic.Lib.ValueLayout
import Idealize.ShloMosaic.Lib.Pipeline.Value

/-!
# Indexing with wrap-around of negative indices, at an index that is in range

Indexing an array of `N` rows at an integer column `cl : [T]` first wraps a negative index,
`w = select (cl < 0) (cl + N) cl`, reshapes `w` to a column `[T, 1]`, and then gathers with the
start index read signed and clamped into `[0, N - 1]`.  A scatter reads the raw column, reshaped
the same way, unclamped.

* `col_apply`: the column `[T, 1]` made from a vector `[T]` (a broadcast along axis 0) reads, at
  `(e, 0)`, the vector at `e`.
* `wrap_word`: a word whose signed value is a natural number is not below zero, so the wrapping
  select leaves it unchanged.
* `rowAt_wrap_of` / `rowAt_wrap`: an edge whose raw index, read signed, is the in-range row `v`
  reads through the wrapped, clamped index exactly row `v`: `min v (N - 1) = v`.
* `landing_col`: edge `e` lands on row `v` of a scatter by the column made from `cl` exactly when
  `cl` at `e`, read signed, is `v`.
-/

noncomputable section

namespace Cert.WrapIndex

open Idealize.ShloMosaic Idealize.ShloMosaic.ValueIdx

/-- The column `[T, 1]` made from a vector `[T]` reads at `(e, 0)` the vector at `e`. -/
theorem col_apply {α : Type} {T : ℕ}
    (hb1 : (⟨1, ![T]⟩ : Shape).BroadcastsInDim ⟨2, ![T, 1]⟩ ![0])
    (x : (⟨1, ![T]⟩ : Shape).Idx → α) (e : Fin T) :
    broadcastInDim ⟨2, ![T, 1]⟩ ![0] hb1 x (ix2 e (0 : Fin 1)) = x (ix1 e) := by
  refine broadcastInDim_apply _ hb1 x _ (ix1 e) fun a => ?_
  match a with
  | ⟨0, _⟩ =>
    show e.val = if T = 1 then 0 else e.val
    split
    · omega
    · rfl

/-- A word whose signed value is a natural number is not below zero: the wrapping select keeps it. -/
theorem wrap_word (c y : BitVec 32) (n : ℕ) (h : c.toInt = (n : ℤ)) :
    Scalar.select (IntOp.cmpi .slt c 0#32) y c = c := by
  have h0 : IntOp.cmpi .slt c 0#32 = 0#1 := by
    have : ¬ c.toInt < 0 := by omega
    simp [IntOp.cmpi, BitVec.slt, this]
  rw [h0, select_zero]

/-- The wrapped index at an edge whose raw index is a natural number, whatever is added when wrapping. -/
theorem wrapped_apply {T : ℕ} (hb0 : (⟨0, ![]⟩ : Shape).BroadcastsInDim ⟨1, ![T]⟩ ![])
    (cl y : IVec ⟨1, ![T]⟩ 32) (n : ℕ) (e : Fin T) (h : (cl (ix1 e)).toInt = (n : ℤ)) :
    select (cmpi .slt cl (broadcastInDim ⟨1, ![T]⟩ ![] hb0 (constantI ⟨0, ![]⟩ 32 0#32))) y cl (ix1 e)
      = cl (ix1 e) :=
  wrap_word (cl (ix1 e)) (y (ix1 e)) n h

/-- An edge whose raw index is the in-range row `v` reads, through the wrapped and clamped index,
row `v`; for any number of rows `N` and any addend in the wrapping. -/
theorem rowAt_wrap_of {T N : ℕ} (hN : 0 < N)
    (hb0 : (⟨0, ![]⟩ : Shape).BroadcastsInDim ⟨1, ![T]⟩ ![])
    (hb1 : (⟨1, ![T]⟩ : Shape).BroadcastsInDim ⟨2, ![T, 1]⟩ ![0])
    (cl y : IVec ⟨1, ![T]⟩ 32) (v : Fin N) (e : Fin T) (h : (cl (ix1 e)).toInt = (v.val : ℤ)) :
    Cert.GatherRows.rowAt N hN (broadcastInDim ⟨2, ![T, 1]⟩ ![0] hb1
      (select (cmpi .slt cl (broadcastInDim ⟨1, ![T]⟩ ![] hb0 (constantI ⟨0, ![]⟩ 32 0#32))) y cl)) e
      = v := by
  refine Fin.ext ?_
  show min ((broadcastInDim ⟨2, ![T, 1]⟩ ![0] hb1
      (select (cmpi .slt cl (broadcastInDim ⟨1, ![T]⟩ ![] hb0 (constantI ⟨0, ![]⟩ 32 0#32))) y cl))
      (ix2 e (0 : Fin 1))).toInt.toNat (N - 1) = v.val
  rw [col_apply hb1, wrapped_apply hb0 cl y v.val e h, h]
  have := v.isLt
  omega

/-- `rowAt_wrap_of` at 100000 rows with the addend 100000. -/
theorem rowAt_wrap {T : ℕ} (hb0 : (⟨0, ![]⟩ : Shape).BroadcastsInDim ⟨1, ![T]⟩ ![])
    (hb1 : (⟨1, ![T]⟩ : Shape).BroadcastsInDim ⟨2, ![T, 1]⟩ ![0])
    (cl : IVec ⟨1, ![T]⟩ 32) (v : Fin 100000) (e : Fin T) (h : (cl (ix1 e)).toInt = (v.val : ℤ)) :
    Cert.GatherRows.rowAt 100000 (by decide) (broadcastInDim ⟨2, ![T, 1]⟩ ![0] hb1
      (select (cmpi .slt cl (broadcastInDim ⟨1, ![T]⟩ ![] hb0 (constantI ⟨0, ![]⟩ 32 0#32)))
        (addi cl (broadcastInDim ⟨1, ![T]⟩ ![] hb0 (constantI ⟨0, ![]⟩ 32 100000#32))) cl)) e = v :=
  rowAt_wrap_of (by decide) hb0 hb1 cl _ v e h

/-- Edge `e` is among the edges whose index in the column made from `cl`, read signed, is `v`
exactly when `cl` at `e`, read signed, is `v`. -/
theorem landing_col {T : ℕ} (hb1 : (⟨1, ![T]⟩ : Shape).BroadcastsInDim ⟨2, ![T, 1]⟩ ![0])
    (cl : IVec ⟨1, ![T]⟩ 32) (v : ℕ) (e : Fin T) :
    e ∈ Cert.ScatterRows.landing (broadcastInDim ⟨2, ![T, 1]⟩ ![0] hb1 cl) v
      ↔ (cl (ix1 e)).toInt = (v : ℤ) := by
  unfold Cert.ScatterRows.landing
  rw [Finset.mem_filter, col_apply hb1]
  exact ⟨fun h => h.2, fun h => ⟨Finset.mem_univ e, h⟩⟩

end Cert.WrapIndex
-- ==== Proof.LibDegreeScaling.lean ====
import proofs.«165002_j858993459363_2_alg».proof.Proof.LibScatterRows
import Idealize.ShloMosaic.Lib.ValueIdx
import Idealize.ShloMosaic.Lib.IdealHost
import Idealize.ShloMosaic.PureOps.Ideal
import Idealize.ShloMosaic.PureOps.Ideal.Laws

/-!
# The degree scaling of a graph is a real number at every node

The degree of node `v` is the number of edges landing on it: a scatter-add of ones (the pattern
`0x3F800000`) into zeros (the pattern `0x00000000`).  The scaling is
`where (deg > 0) (rsqrt deg) 0`.  Over the extended reals:

* `sum_one_eq_card`: a finite sum of ones is the number of terms, a natural number;
* `hostScatterAdd_ones_nat`, `deg_nat`: adding ones into zeros gives a natural number at every
  entry, whatever the indices and whatever the dimension numbers of the scatter;
* `deg_eq_card`: for the scatter of a vector along a column of indices, that number is the number
  of edges whose index, read signed, is `v`;
* `dinv_elt_finite`: for a natural number `n`, `where (n > 0) (rsqrt n) 0` is a real number: at
  `n = 0` the mask is off and the value is `0`; at `n > 0` it is `(√n)⁻¹`.  (The reciprocal
  square root of `0` is `+∞` here; the mask is what keeps it out.)
* `scaling_finite`, `dinv_finite`: hence the scaling is neither infinity at any node.
-/

noncomputable section

open scoped BigOperators

namespace Cert.DegreeScaling

open Idealize.ShloMosaic Idealize.ShloMosaic.ValueIdx

/-- A finite sum of ones is the number of its terms. -/
theorem sum_one_eq_card {ι : Type*} (S : Finset ι) :
    ∑ _j ∈ S, (1 : EReal) = ((S.card : ℝ) : EReal) := by
  classical
  induction S using Finset.induction_on with
  | empty => simp
  | insert a S ha ih =>
    rw [Finset.sum_insert ha, Finset.card_insert_of_notMem ha, ih, Nat.cast_succ, EReal.coe_add,
      add_comm]
    rfl

/-- Adding ones into zeros gives, at every entry, a natural number. -/
theorem hostScatterAdd_ones_nat {s si su : Shape} {w : ℕ} (d : ScatterDims s si su) (idx : IVec si w)
    (X : s.Idx → EReal) (Y : su.Idx → EReal) (hX : ∀ i, X i = 0) (hY : ∀ j, Y j = 1) (i : s.Idx) :
    ∃ n : ℕ, Ideal.hostScatterAdd d X idx Y i = ((n : ℝ) : EReal) := by
  unfold Ideal.hostScatterAdd
  rw [hX, zero_add, Finset.sum_congr rfl (fun j _ => hY j), sum_one_eq_card]
  exact ⟨_, rfl⟩

/-- The scatter-add of the constant one into the constant zero is a natural number at every entry,
for any shapes, indices and dimension numbers. -/
theorem deg_nat {s si su : Shape} {w : ℕ} (d : ScatterDims s si su)
    (hbs : (⟨0, ![]⟩ : Shape).BroadcastsInDim s ![]) (hbu : (⟨0, ![]⟩ : Shape).BroadcastsInDim su ![])
    (idx : IVec si w) (i : s.Idx) :
    ∃ n : ℕ, Host.scatterAdd d
      (broadcastInDim s ![] hbs (constant (F := Ideal) ⟨0, ![]⟩ .f32 0x00000000#32)) idx
      (broadcastInDim su ![] hbu (constant (F := Ideal) ⟨0, ![]⟩ .f32 0x3F800000#32)) i
        = ((n : ℝ) : EReal) :=
  hostScatterAdd_ones_nat d idx _ _ (fun _ => Ideal.ofBits_zero_f32) (fun _ => Ideal.ofBits_one_f32) i

/-- The degree of node `v`: the number of edges whose index, read signed, is `v`. -/
theorem deg_eq_card {N T w : ℕ} (d : ScatterDims ⟨1, ![N]⟩ ⟨2, ![T, 1]⟩ ⟨1, ![T]⟩)
    (h1 : d.updateWindowDims = []) (h2 : d.insertedWindowDims = [0])
    (h3 : d.scatterDimsToOperandDims = [0]) (h4 : d.indexVectorDim = 1)
    (hbN : (⟨0, ![]⟩ : Shape).BroadcastsInDim ⟨1, ![N]⟩ ![])
    (hbT : (⟨0, ![]⟩ : Shape).BroadcastsInDim ⟨1, ![T]⟩ ![])
    (idx : IVec ⟨2, ![T, 1]⟩ w) (v : Fin N) :
    Host.scatterAdd d
      (broadcastInDim ⟨1, ![N]⟩ ![] hbN (constant (F := Ideal) ⟨0, ![]⟩ .f32 0x00000000#32)) idx
      (broadcastInDim ⟨1, ![T]⟩ ![] hbT (constant (F := Ideal) ⟨0, ![]⟩ .f32 0x3F800000#32)) (ix1 v)
        = (((Cert.ScatterRows.landing idx v.val).card : ℝ) : EReal) := by
  rw [Cert.ScatterRows.scatterAdd_vec_apply d h1 h2 h3 h4]
  show Ideal.ofBits .f32 0x00000000#32 + ∑ e ∈ Cert.ScatterRows.landing idx v.val,
    Ideal.ofBits .f32 0x3F800000#32 = _
  rw [Ideal.ofBits_zero_f32, Ideal.ofBits_one_f32, zero_add, sum_one_eq_card]

/-- For a natural number `n`, `where (n > 0) (rsqrt n) 0` is a real number. -/
theorem dinv_elt_finite (x : EReal) (n : ℕ) (hx : x = ((n : ℝ) : EReal)) :
    Scalar.select (FloatOps.cmpf (F := Ideal) (φ := .f32) .ogt x (Ideal.ofBits .f32 0x00000000#32))
        (FloatOps.hostUnary (F := Ideal) (φ := .f32) .rsqrt x) (Ideal.ofBits .f32 0x00000000#32)
      ≠ (⊤ : EReal) ∧
    Scalar.select (FloatOps.cmpf (F := Ideal) (φ := .f32) .ogt x (Ideal.ofBits .f32 0x00000000#32))
        (FloatOps.hostUnary (F := Ideal) (φ := .f32) .rsqrt x) (Ideal.ofBits .f32 0x00000000#32)
      ≠ (⊥ : EReal) := by
  subst hx
  rw [Ideal.ofBits_zero_f32]
  change (if BitVec.ofBool (decide ((0 : EReal) < ((n : ℝ) : EReal))) = 1#1
      then Ideal.rsqrt ((n : ℝ) : EReal) else (0 : EReal)) ≠ ⊤ ∧
    (if BitVec.ofBool (decide ((0 : EReal) < ((n : ℝ) : EReal))) = 1#1
      then Ideal.rsqrt ((n : ℝ) : EReal) else (0 : EReal)) ≠ ⊥
  rcases Nat.eq_zero_or_pos n with rfl | hn
  · -- n = 0: the mask is off, the value is 0
    simp
  · -- n > 0: the mask is on, the value is the real (√n)⁻¹
    have hr : (0 : ℝ) < (n : ℝ) := by exact_mod_cast hn
    have h0 : (0 : EReal) < ((n : ℝ) : EReal) := by exact_mod_cast hr
    rw [Ideal.rsqrt_coe, if_neg (not_lt.2 hr.le), if_neg hr.ne']
    simp only [h0, decide_true, BitVec.ofBool_true, if_true]
    exact ⟨EReal.coe_ne_top _, EReal.coe_ne_bot _⟩

/-- The scaling `where (deg > 0) (rsqrt deg) 0` is a real number at every entry where `deg` is a
natural number. -/
theorem scaling_finite {s : Shape} (deg : FVec Ideal s .f32)
    (hbs : (⟨0, ![]⟩ : Shape).BroadcastsInDim s ![]) (i : s.Idx) (n : ℕ)
    (hdeg : deg i = ((n : ℝ) : EReal)) :
    (select (cmpf (F := Ideal) .ogt deg
        (broadcastInDim s ![] hbs (constant (F := Ideal) ⟨0, ![]⟩ .f32 0x00000000#32)))
      (Host.rsqrt deg)
      (broadcastInDim s ![] hbs (id (constant (F := Ideal) ⟨0, ![]⟩ .f32 0x00000000#32)))) i
      ≠ (⊤ : EReal) ∧
    (select (cmpf (F := Ideal) .ogt deg
        (broadcastInDim s ![] hbs (constant (F := Ideal) ⟨0, ![]⟩ .f32 0x00000000#32)))
      (Host.rsqrt deg)
      (broadcastInDim s ![] hbs (id (constant (F := Ideal) ⟨0, ![]⟩ .f32 0x00000000#32)))) i
      ≠ (⊥ : EReal) :=
  dinv_elt_finite (deg i) n hdeg

/-- The degree scaling is a real number at every node, whatever the indices.  (The hypotheses on the
dimension numbers are not used: `deg_nat` holds for any.) -/
theorem dinv_finite {N T w : ℕ} (d : ScatterDims ⟨1, ![N]⟩ ⟨2, ![T, 1]⟩ ⟨1, ![T]⟩)
    (_h1 : d.updateWindowDims = []) (_h2 : d.insertedWindowDims = [0])
    (_h3 : d.scatterDimsToOperandDims = [0]) (_h4 : d.indexVectorDim = 1)
    (hbN : (⟨0, ![]⟩ : Shape).BroadcastsInDim ⟨1, ![N]⟩ ![])
    (hbT : (⟨0, ![]⟩ : Shape).BroadcastsInDim ⟨1, ![T]⟩ ![])
    (idx : IVec ⟨2, ![T, 1]⟩ w) (v : Fin N) :
    let deg : FVec Ideal ⟨1, ![N]⟩ .f32 := Host.scatterAdd d
      (broadcastInDim ⟨1, ![N]⟩ ![] hbN (constant (F := Ideal) ⟨0, ![]⟩ .f32 0x00000000#32)) idx
      (broadcastInDim ⟨1, ![T]⟩ ![] hbT (constant (F := Ideal) ⟨0, ![]⟩ .f32 0x3F800000#32))
    (select (cmpf (F := Ideal) .ogt deg
        (broadcastInDim ⟨1, ![N]⟩ ![] hbN (constant (F := Ideal) ⟨0, ![]⟩ .f32 0x00000000#32)))
      (Host.rsqrt deg)
      (broadcastInDim ⟨1, ![N]⟩ ![] hbN (id (constant (F := Ideal) ⟨0, ![]⟩ .f32 0x00000000#32))))
      (ix1 v) ≠ (⊤ : EReal) ∧
    (select (cmpf (F := Ideal) .ogt deg
        (broadcastInDim ⟨1, ![N]⟩ ![] hbN (constant (F := Ideal) ⟨0, ![]⟩ .f32 0x00000000#32)))
      (Host.rsqrt deg)
      (broadcastInDim ⟨1, ![N]⟩ ![] hbN (id (constant (F := Ideal) ⟨0, ![]⟩ .f32 0x00000000#32))))
      (ix1 v) ≠ (⊥ : EReal) := by
  intro deg
  obtain ⟨n, hn⟩ := deg_nat d hbN hbT idx (ix1 v)
  exact scaling_finite deg hbN (ix1 v) n hn

end Cert.DegreeScaling
-- ==== Proof.Bridge.lean ====
/-
  The kernel's and the reference's result arrays are one function of finite arguments.

  Both programs build the same index vectors from the edge list and the same per-node scaling d = deg^(−1/2); they
  differ in where d is multiplied in. The reference scales every edge's row by d[row read]·d[row landed on] before
  adding it in; the kernel scales the rows by d once before the aggregation and once after it, and in the second layer
  aggregates the 16-wide hidden rows before projecting them instead of after. Entry by entry the two are

      kernel   :  Σ_k ((Σ_{e→v} H'[r e, k]) · d[v]) · W2[k, j] + b2[j],   H'[u,c] = relu((Σ_{e→u} XW[r e,c]·d[r e])·d[u] + b1[c])·d[u]
      reference:  Σ_{e→v} (Σ_k H[r e, k] · W2[k, j]) · (d[r e]·d[v]) + b2[j],  H[u,c] = relu(Σ_{e→u} XW[r e,c]·(d[r e]·d[u]) + b1[c])

  equal by distributivity and exchanging the two sums — laws that hold on the extended reals only at finite values,
  which is where the finiteness of X, W1, b1, W2 is used; d is finite because a degree is a natural number. An edge
  lands on row v exactly when its raw column index is v, and then the wrapped, clamped index the reference reads d
  through is v as well.
-/
import proofs.«165002_j858993459363_2_alg».proof.Proof.KerRead
import proofs.«165002_j858993459363_2_alg».proof.Proof.RefRead
import proofs.«165002_j858993459363_2_alg».proof.Proof.GcnAlgebra
import proofs.«165002_j858993459363_2_alg».proof.Proof.LibWrapIndex
import proofs.«165002_j858993459363_2_alg».proof.Proof.LibDegreeScaling

set_option maxRecDepth 16384

noncomputable section

namespace Cert.Bridge

open Idealize.ShloMosaic Idealize.ShloMosaic.ValueIdx

/-- The two programs' wrapped row-index columns are one array. -/
theorem rows_eq (x1 : IVec Cert.KernelIdeal.S2x3200000 32) :
    Cert.KernelIdeal.Stages.wrapB (Cert.KernelIdeal.Stages.rowI x1) = Cert.ReferenceIdeal.Stages.wrapB (Cert.ReferenceIdeal.Stages.rowI x1) := rfl

/-- The two programs' raw column-index columns are one array. -/
theorem cols_eq (x1 : IVec Cert.KernelIdeal.S2x3200000 32) :
    Cert.KernelIdeal.Stages.colB (Cert.KernelIdeal.Stages.colI x1) = Cert.ReferenceIdeal.Stages.colB (Cert.ReferenceIdeal.Stages.colI x1) := rfl

/-- The two programs' scalings are one array. -/
theorem dinv_eq (x1 : IVec Cert.KernelIdeal.S2x3200000 32) :
    Cert.KernelIdeal.Stages.dinv (F := Ideal) (Cert.KernelIdeal.Stages.colI x1) = Cert.ReferenceIdeal.Stages.dinv (Cert.ReferenceIdeal.Stages.colI x1) := rfl

/-- An edge landing on row v reads, through its wrapped column index, row v. -/
theorem landing_reads (x1 : IVec Cert.ReferenceIdeal.S2x3200000 32) (v : Fin 100000) (e : Fin 3300000)
    (he : e ∈ Cert.ScatterRows.landing (Cert.ReferenceIdeal.Stages.colB (Cert.ReferenceIdeal.Stages.colI x1)) v.val) :
    Cert.GatherRows.rowAt 100000 (by decide) (Cert.ReferenceIdeal.Stages.wrapB (Cert.ReferenceIdeal.Stages.colI x1)) e = v := by
  unfold Cert.ReferenceIdeal.Stages.colB at he
  unfold Cert.ReferenceIdeal.Stages.wrapB
  exact Cert.WrapIndex.rowAt_wrap _ _ _ v e ((Cert.WrapIndex.landing_col _ _ _ e).mp he)

/-- The scaling is a real at every node. -/
theorem dinv_real (x1 : IVec Cert.ReferenceIdeal.S2x3200000 32) (v : Fin 100000) :
    Cert.ReferenceIdeal.Stages.dinv (Cert.ReferenceIdeal.Stages.colI x1) (ix1 v) ≠ (⊤ : EReal) ∧ Cert.ReferenceIdeal.Stages.dinv (Cert.ReferenceIdeal.Stages.colI x1) (ix1 v) ≠ (⊥ : EReal) := by
  unfold Cert.ReferenceIdeal.Stages.dinv Cert.ReferenceIdeal.Stages.deg
  exact Cert.DegreeScaling.dinv_finite _ rfl rfl rfl rfl _ _ _ v

/-- THE TWO ARRAYS ARE EQUAL when X, W1, b1, W2 hold reals. -/
theorem arrays_eq (x0 : FVec Ideal Cert.KernelIdeal.S100000x512 .f32) (x1 : IVec Cert.KernelIdeal.S2x3200000 32)
    (x2 : FVec Ideal Cert.KernelIdeal.S512x16 .f32) (x3 : FVec Ideal Cert.KernelIdeal.S16 .f32)
    (x4 : FVec Ideal Cert.KernelIdeal.S16x64 .f32) (x5 : FVec Ideal Cert.KernelIdeal.S64 .f32)
    (h0 : ∀ i, x0 i ≠ (⊤ : EReal) ∧ x0 i ≠ (⊥ : EReal)) (h2 : ∀ i, x2 i ≠ (⊤ : EReal) ∧ x2 i ≠ (⊥ : EReal))
    (h3 : ∀ i, x3 i ≠ (⊤ : EReal) ∧ x3 i ≠ (⊥ : EReal)) (h4 : ∀ i, x4 i ≠ (⊤ : EReal) ∧ x4 i ≠ (⊥ : EReal)) :
    Cert.KernelIdeal.Stages.kerArr x0 x1 x2 x3 x4 x5 = Cert.ReferenceIdeal.Stages.refArr x0 x1 x2 x3 x4 x5 := by
  funext i
  obtain ⟨v, j, rfl⟩ : ∃ (v : Fin 100000) (j : Fin 64), i = ix2 v j := ⟨i 0, i 1, eq_ix2 i⟩
  unfold Cert.KernelIdeal.Stages.kerArr Cert.ReferenceIdeal.Stages.refArr
  rw [Cert.KernelIdeal.Read'.kerArrOf_apply, Cert.ReferenceIdeal.Read'.refArrOf_apply, rows_eq, cols_eq, dinv_eq]
  exact Cert.Gcn.kerOut_eq_refOut _ _ _ (fun v e he => landing_reads x1 v e he) _ _ _ _ _ _
    (fun u k => h0 _) (fun k c => h2 _) (fun c => h3 _) (fun k j => h4 _) (fun v => dinv_real x1 v) v j

end Cert.Bridge

end
-- ==== Proof.Finite.lean ====
import proofs.«165002_j858993459363_2_alg».proof.Defs
import proofs.«165002_j858993459363_2_alg».proof.Proof.Gen.Pre_finite_inputs
import Idealize.ShloMosaic.Lib.ReduceAll
import Idealize.ShloMosaic.Lib.IdealHost
import Idealize.ShloMosaic.PureOps.Ideal

/-!
# The precondition makes every float input entry a real number

The precondition `Cert.Pre_finite_inputs.fn` is the conjunction, over the five float
arguments `a`, of `all (|a| < +∞)`: each conjunct is a reduction by `and`, over all axes, of
the elementwise comparison of `|a i| = max (a i) (-(a i))` with the constant whose bit
pattern `0x7F800000` denotes `+∞`.  At the ideal instance a float is an extended real, so:

* `inf_bits`: the pattern `0x7F800000` denotes `⊤`;
* `elt_finite`: `max x (-x) < ⊤` forces `x ≠ ⊤` and `x ≠ ⊥` (at either infinity the
  maximum is `⊤`);
* `all_finite`: a reduction by `and` into a single result that equals 1 has a 1 at every
  operand index, hence every entry of the array satisfies `elt_finite`'s hypothesis;
* `finite_of_pre`: the precondition being all ones splits, conjunct by conjunct, into the
  five reductions, and each gives the finiteness of one argument.
-/

noncomputable section

namespace Cert.Finite

open Idealize.ShloMosaic Cert.Pre_finite_inputs

/-- The scalar shape has exactly one index. -/
instance : Subsingleton S_.Idx := ⟨fun a b => funext fun d => d.elim0⟩

/-- The single-precision pattern `0x7F800000` (sign 0, exponent all ones, fraction 0) denotes `+∞`. -/
theorem inf_bits :
    (FloatOps.ofBits (F := Ideal) .f32 0x7F800000#32 : Ideal .f32) = (⊤ : EReal) := by
  show Ideal.ofBits .f32 0x7F800000#32 = ⊤
  simp [Ideal.ofBits, Ideal.ieee]

/-- If `|x| < +∞` holds as a comparison of extended reals then `x` is neither infinity. -/
theorem elt_finite (x : Ideal .f32)
    (h : FloatOps.cmpf (F := Ideal) .olt (FloatOps.hostAbsf x)
      (FloatOps.ofBits .f32 0x7F800000#32) = 1#1) :
    x ≠ (⊤ : EReal) ∧ x ≠ (⊥ : EReal) := by
  rw [inf_bits] at h
  change BitVec.ofBool (decide (max x (-x) < (⊤ : EReal))) = 1#1 at h
  induction x using EReal.rec with
  | bot => simp at h
  | coe r => exact ⟨EReal.coe_ne_top r, EReal.coe_ne_bot r⟩
  | top => simp at h

/-- `all (|a| < +∞) = 1` makes every entry of `a` a real number. -/
theorem all_finite {s : Shape} (a : FVec Ideal s .f32) (hb : S_.BroadcastsInDim s ![])
    {axes : List (Fin s.rank)} (hr : s.ReducesTo axes S_) (hu : 0 < S_.numel)
    (e : Host.reduce IntOp.andi
        (cmpf .olt (Host.absf a) (broadcastInDim s ![] hb (constant S_ .f32 0x7F800000#32)))
        (constantI S_ 1 1#1) hr hu ValueIdx.ix0 = 1#1) :
    ∀ i, a i ≠ (⊤ : EReal) ∧ a i ≠ (⊥ : EReal) := by
  intro i
  -- the comparison at index `i` is 1; it is, by definition, the comparison of `|a i|` with `+∞`
  have hi := Host.reduce_andi_all _ _ hr hu _ e i
  exact elt_finite (a i) hi

/-- From the precondition, every entry of every float argument is a real number. -/
theorem finite_of_pre [hP : Cert.Pre_finite_inputs.Facts]
    (a0 : FVec Ideal S100000x512 .f32) (a1 : IVec S2x3200000 32) (a2 : FVec Ideal S512x16 .f32)
    (a3 : FVec Ideal S16 .f32) (a4 : FVec Ideal S16x64 .f32) (a5 : FVec Ideal S64 .f32)
    (h : Cert.Pre_finite_inputs.fn (F := Ideal) a0 a1 a2 a3 a4 a5 = fun _ => 1#1) :
    (∀ i, a0 i ≠ (⊤ : EReal) ∧ a0 i ≠ (⊥ : EReal)) ∧
    (∀ i, a2 i ≠ (⊤ : EReal) ∧ a2 i ≠ (⊥ : EReal)) ∧
    (∀ i, a3 i ≠ (⊤ : EReal) ∧ a3 i ≠ (⊥ : EReal)) ∧
    (∀ i, a4 i ≠ (⊤ : EReal) ∧ a4 i ≠ (⊥ : EReal)) ∧
    (∀ i, a5 i ≠ (⊤ : EReal) ∧ a5 i ≠ (⊥ : EReal)) := by
  have h0 := congrFun h ValueIdx.ix0
  dsimp only [fn, fn_part1, andi] at h0
  -- the result is ((((c0 ∧ c2) ∧ c3) ∧ c4) ∧ c5), one conjunct per float argument
  obtain ⟨h0123, h5⟩ := IntOp.andi_eq_one.1 h0
  obtain ⟨h012, h4⟩ := IntOp.andi_eq_one.1 h0123
  obtain ⟨h01, h3⟩ := IntOp.andi_eq_one.1 h012
  obtain ⟨h0', h2⟩ := IntOp.andi_eq_one.1 h01
  exact ⟨all_finite a0 _ _ _ h0', all_finite a2 _ _ _ h2, all_finite a3 _ _ _ h3,
    all_finite a4 _ _ _ h4, all_finite a5 _ _ _ h5⟩

end Cert.Finite
-- ==== Proof.lean ====
/-
  The certificate: a two-layer graph convolution computed by two kernels around plain gathers and scatter-adds,
  against the textbook formula.

  Frames: the word-level and the idealized kernel programs terminate without a fault and leave their arguments alone
  (two kernel regions of 25 grid points each, among stretches of host operations); the reference is a straight-line
  host program, whose run also names its result. The idealization rewrote no operation, so nothing is owed for it.
  Values, over the extended reals: the kernel's result array is its two regions' closed forms composed with the host
  stages between them; the reference's result array is the composed term of its run; entry by entry both are a sum
  over the edges landing on the entry's row, and for finite X, W1, b1, W2 the two sums are equal by distributivity and
  an exchange of summation (the scaling deg^(−1/2) is finite because a degree is a natural number).
-/
import proofs.«165002_j858993459363_2_alg».proof.Defs
import proofs.«165002_j858993459363_2_alg».proof.Proof.Gen.Kernel
import proofs.«165002_j858993459363_2_alg».proof.Proof.Gen.Kernel.Frame
import proofs.«165002_j858993459363_2_alg».proof.Proof.Gen.KernelIdeal
import proofs.«165002_j858993459363_2_alg».proof.Proof.Gen.KernelIdeal.Frame
import proofs.«165002_j858993459363_2_alg».proof.Proof.Gen.ReferenceIdeal
import proofs.«165002_j858993459363_2_alg».proof.Proof.Gen.Pre_finite_inputs
import proofs.«165002_j858993459363_2_alg».proof.Proof.RefRunP
import proofs.«165002_j858993459363_2_alg».proof.Proof.KerValue
import proofs.«165002_j858993459363_2_alg».proof.Proof.RefStages
import proofs.«165002_j858993459363_2_alg».proof.Proof.Bridge
import proofs.«165002_j858993459363_2_alg».proof.Proof.Finite

set_option maxRecDepth 16384

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, from memories agreeing on the arguments, end with one result array. -/
theorem algebraic : Cert.algebraic_KernelIdeal_ReferenceIdeal := by
  intro m ρ m' ρ' hpre hagree
  refine ⟨fun c => Cert.KernelIdeal.Stages.kerArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Stages.value m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨f0, f2, f3, f4, -⟩ := Cert.Finite.finite_of_pre _ _ _ _ _ _ (hpre c)
    rw [Cert.ReferenceIdeal.Stages.res_eq, (hagree c).1, (hagree c).2.1, (hagree c).2.2.1, (hagree c).2.2.2.1,
      (hagree c).2.2.2.2.1, (hagree c).2.2.2.2.2]
    exact (Cert.Bridge.arrays_eq _ _ _ _ _ _ f0 f2 f3 f4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
